-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S85x256 : Shape := ⟨2, ![85, 256]⟩
abbrev S5625x128 : Shape := ⟨2, ![5625, 128]⟩
abbrev S256x200 : Shape := ⟨2, ![256, 200]⟩
abbrev S200 : Shape := ⟨1, ![200]⟩
abbrev S128x2 : Shape := ⟨2, ![128, 2]⟩
abbrev S2 : Shape := ⟨1, ![2]⟩
abbrev S113x5 : Shape := ⟨2, ![113, 5]⟩
abbrev S5 : Shape := ⟨1, ![5]⟩
abbrev S2x1360 : Shape := ⟨2, ![2, 1360]⟩
abbrev S2x180000 : Shape := ⟨2, ![2, 180000]⟩
abbrev S_ : Shape := ⟨0, ![]⟩

class Facts : Prop where
  bcast_S_S85x256 : S_.BroadcastsInDim S85x256 (![] : Fin 0 → Fin S85x256.rank)
  reducesTo_S85x256_S_d0_1 : S85x256.ReducesTo [0, 1] S_
  h_S_ : 0 < S_.numel
  bcast_S_S5625x128 : S_.BroadcastsInDim S5625x128 (![] : Fin 0 → Fin S5625x128.rank)
  reducesTo_S5625x128_S_d0_1 : S5625x128.ReducesTo [0, 1] S_
  bcast_S_S256x200 : S_.BroadcastsInDim S256x200 (![] : Fin 0 → Fin S256x200.rank)
  reducesTo_S256x200_S_d0_1 : S256x200.ReducesTo [0, 1] S_
  bcast_S_S200 : S_.BroadcastsInDim S200 (![] : Fin 0 → Fin S200.rank)
  reducesTo_S200_S_d0 : S200.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S113x5 : S_.BroadcastsInDim S113x5 (![] : Fin 0 → Fin S113x5.rank)
  reducesTo_S113x5_S_d0_1 : S113x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S5 .f32) (main_v33 : IVec S_ 1) : IVec S_ 1 :=
  let main_v34 : FVec F S5 .f32 := Host.absf main_arg7
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  main_v38

def fn_part1 {F : FTy → Type} [FloatOps F] (main_arg4 : FVec F S128x2 .f32) (main_arg5 : FVec F S2 .f32) (main_arg6 : FVec F S113x5 .f32) (main_arg7 : FVec F S5 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S128x2 .f32 := Host.absf main_arg4
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S113x5 .f32 := Host.absf main_arg6
  let main_cst_10 : FVec F S_ .f32 := constant S_ .f32 0x7F800000#32
  let main_v30 : FVec F S113x5 .f32 := broadcastInDim S113x5 ![] bcast_S_S113x5 main_cst_10
  let main_v31 : IVec S113x5 1 := cmpf .olt main_v29 main_v30
  let main_c_11 : IVec S_ 1 := constantI S_ 1 1#1
  let main_v32 : IVec S_ 1 := (fun x v => Host.reduce IntOp.andi x v reducesTo_S113x5_S_d0_1 h_S_) main_v31 main_c_11
  let main_v33 : IVec S_ 1 := andi main_v28 main_v32
  fn_part2 (F := F) main_arg7 main_v33

def fn {F : FTy → Type} [FloatOps F] (main_arg0 : FVec F S85x256 .f32) (main_arg1 : FVec F S5625x128 .f32) (main_arg2 : FVec F S256x200 .f32) (main_arg3 : FVec F S200 .f32) (main_arg4 : FVec F S128x2 .f32) (main_arg5 : FVec F S2 .f32) (main_arg6 : FVec F S113x5 .f32) (main_arg7 : FVec F S5 .f32) (main_arg8 : IVec S2x1360 32) (main_arg9 : IVec S2x180000 32) : IVec S_ 1 :=
  let main_v0 : FVec F S85x256 .f32 := Host.absf main_arg0
  let main_cst : FVec F S_ .f32 := constant S_ .f32 0x7F800000#32
  let main_v1 : FVec F S85x256 .f32 := broadcastInDim S85x256 ![] bcast_S_S85x256 main_cst
  let main_v2 : IVec S85x256 1 := cmpf .olt main_v0 main_v1
  let main_c : IVec S_ 1 := constantI S_ 1 1#1
  let main_v3 : IVec S_ 1 := (fun x v => Host.reduce IntOp.andi x v reducesTo_S85x256_S_d0_1 h_S_) main_v2 main_c
  let main_v4 : FVec F S5625x128 .f32 := Host.absf main_arg1
  let main_cst_0 : FVec F S_ .f32 := constant S_ .f32 0x7F800000#32
  let main_v5 : FVec F S5625x128 .f32 := broadcastInDim S5625x128 ![] bcast_S_S5625x128 main_cst_0
  let main_v6 : IVec S5625x128 1 := cmpf .olt main_v4 main_v5
  let main_c_1 : IVec S_ 1 := constantI S_ 1 1#1
  let main_v7 : IVec S_ 1 := (fun x v => Host.reduce IntOp.andi x v reducesTo_S5625x128_S_d0_1 h_S_) main_v6 main_c_1
  let main_v8 : IVec S_ 1 := andi main_v3 main_v7
  let main_v9 : FVec F S256x200 .f32 := Host.absf main_arg2
  let main_cst_2 : FVec F S_ .f32 := constant S_ .f32 0x7F800000#32
  let main_v10 : FVec F S256x200 .f32 := broadcastInDim S256x200 ![] bcast_S_S256x200 main_cst_2
  let main_v11 : IVec S256x200 1 := cmpf .olt main_v9 main_v10
  let main_c_3 : IVec S_ 1 := constantI S_ 1 1#1
  let main_v12 : IVec S_ 1 := (fun x v => Host.reduce IntOp.andi x v reducesTo_S256x200_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg4 main_arg5 main_arg6 main_arg7 main_v13 main_v16
-- ==== Kernel.lean ====
abbrev S85x256 : Shape := ⟨2, ![85, 256]⟩
abbrev S5625x128 : Shape := ⟨2, ![5625, 128]⟩
abbrev S256x200 : Shape := ⟨2, ![256, 200]⟩
abbrev S200 : Shape := ⟨1, ![200]⟩
abbrev S128x2 : Shape := ⟨2, ![128, 2]⟩
abbrev S2 : Shape := ⟨1, ![2]⟩
abbrev S113x5 : Shape := ⟨2, ![113, 5]⟩
abbrev S5 : Shape := ⟨1, ![5]⟩
abbrev S2x1360 : Shape := ⟨2, ![2, 1360]⟩
abbrev S2x180000 : Shape := ⟨2, ![2, 180000]⟩
abbrev S85x200 : Shape := ⟨2, ![85, 200]⟩
abbrev S85 : Shape := ⟨1, ![85]⟩
abbrev S1x1360 : Shape := ⟨2, ![1, 1360]⟩
abbrev S1360 : Shape := ⟨1, ![1360]⟩
abbrev S1445 : Shape := ⟨1, ![1445]⟩
abbrev S_ : Shape := ⟨0, ![]⟩
abbrev S1445x1 : Shape := ⟨2, ![1445, 1]⟩
abbrev S1445x200 : Shape := ⟨2, ![1445, 200]⟩
abbrev S1x200 : Shape := ⟨2, ![1, 200]⟩
abbrev S250x68 : Shape := ⟨2, ![250, 68]⟩
abbrev S5625x2 : Shape := ⟨2, ![5625, 2]⟩
abbrev S5625 : Shape := ⟨1, ![5625]⟩
abbrev S1x180000 : Shape := ⟨2, ![1, 180000]⟩
abbrev S180000 : Shape := ⟨1, ![180000]⟩
abbrev S185625 : Shape := ⟨1, ![185625]⟩
abbrev S185625x1 : Shape := ⟨2, ![185625, 1]⟩
abbrev S185625x2 : Shape := ⟨2, ![185625, 2]⟩
abbrev S1x2 : Shape := ⟨2, ![1, 2]⟩
abbrev S250x45 : Shape := ⟨2, ![250, 45]⟩
abbrev S68x5 : Shape := ⟨2, ![68, 5]⟩
abbrev S45x5 : Shape := ⟨2, ![45, 5]⟩
abbrev S1x5 : Shape := ⟨2, ![1, 5]⟩
abbrev S250x5 : Shape := ⟨2, ![250, 5]⟩

abbrev nBuf : Space → Nat
  | .hbm => 140
  | .vmem => 12
  | .smem => 0
  | _ => 0

abbrev hbmTy0_0 (i : Nat) : BufTy := match i % 128 with
  | 0 => ⟨S85x256, .f32⟩
  | 1 => ⟨S5625x128, .f32⟩
  | 2 => ⟨S256x200, .f32⟩
  | 3 => ⟨S200, .f32⟩
  | 4 => ⟨S128x2, .f32⟩
  | 5 => ⟨S2, .f32⟩
  | 6 => ⟨S113x5, .f32⟩
  | 7 => ⟨S5, .f32⟩
  | 8 => ⟨S2x1360, .i32⟩
  | 9 => ⟨S2x180000, .i32⟩
  | 10 => ⟨S85x200, .f32⟩
  | 11 => ⟨S85, .i32⟩
  | 12 => ⟨S1x1360, .i32⟩
  | 13 => ⟨S1360, .i32⟩
  | 14 => ⟨S1445, .i32⟩
  | 15 => ⟨S1x1360, .i32⟩
  | 16 => ⟨S1360, .i32⟩
  | 17 => ⟨S1445, .i32⟩
  | 18 => ⟨S_, .f32⟩
  | 19 => ⟨S1445, .f32⟩
  | 20 => ⟨S_, .f32⟩
  | 21 => ⟨S85, .f32⟩
  | 22 => ⟨S1445x1, .i32⟩
  | 23 => ⟨S85, .f32⟩
  | 24 => ⟨S_, .f32⟩
  | 25 => ⟨S85, .f32⟩
  | 26 => ⟨S85, .i1⟩
  | 27 => ⟨S_, .f32⟩
  | 28 => ⟨S85, .f32⟩
  | 29 => ⟨S85, .f32⟩
  | 30 => ⟨S_, .f32⟩
  | 31 => ⟨S_, .f32⟩
  | 32 => ⟨S85, .f32⟩
  | 33 => ⟨S85, .f32⟩
  | 34 => ⟨S_, .i32⟩
  | 35 => ⟨S1445, .i32⟩
  | 36 => ⟨S1445, .i1⟩
  | 37 => ⟨S_, .i32⟩
  | 38 => ⟨S1445, .i32⟩
  | 39 => ⟨S1445, .i32⟩
  | 40 => ⟨S1445, .i32⟩
  | 41 => ⟨S1445x1, .i32⟩
  | 42 => ⟨S1445, .f32⟩
  | 43 => ⟨S_, .i32⟩
  | 44 => ⟨S1445, .i32⟩
  | 45 => ⟨S1445, .i1⟩
  | 46 => ⟨S_, .i32⟩
  | 47 => ⟨S1445, .i32⟩
  | 48 => ⟨S1445, .i32⟩
  | 49 => ⟨S1445, .i32⟩
  | 50 => ⟨S1445x1, .i32⟩
  | 51 => ⟨S1445, .f32⟩
  | 52 => ⟨S1445, .f32⟩
  | 53 => ⟨S_, .i32⟩
  | 54 => ⟨S1445, .i32⟩
  | 55 => ⟨S1445, .i1⟩
  | 56 => ⟨S_, .i32⟩
  | 57 => ⟨S1445, .i32⟩
  | 58 => ⟨S1445, .i32⟩
  | 59 => ⟨S1445, .i32⟩
  | 60 => ⟨S1445x1, .i32⟩
  | 61 => ⟨S1445x200, .f32⟩
  | 62 => ⟨S1445x1, .f32⟩
  | 63 => ⟨S1445x200, .f32⟩
  | 64 => ⟨S1445x200, .f32⟩
  | 65 => ⟨S_, .f32⟩
  | 66 => ⟨S85x200, .f32⟩
  | 67 => ⟨S1445x1, .i32⟩
  | 68 => ⟨S85x200, .f32⟩
  | 69 => ⟨S1x200, .f32⟩
  | 70 => ⟨S85x200, .f32⟩
  | 71 => ⟨S85x200, .f32⟩
  | 72 => ⟨S250x68, .f32⟩
  | 73 => ⟨S5625x2, .f32⟩
  | 74 => ⟨S5625, .i32⟩
  | 75 => ⟨S1x180000, .i32⟩
  | 76 => ⟨S180000, .i32⟩
  | 77 => ⟨S185625, .i32⟩
  | 78 => ⟨S1x180000, .i32⟩
  | 79 => ⟨S180000, .i32⟩
  | 80 => ⟨S185625, .i32⟩
  | 81 => ⟨S_, .f32⟩
  | 82 => ⟨S185625, .f32⟩
  | 83 => ⟨S_, .f32⟩
  | 84 => ⟨S5625, .f32⟩
  | 85 => ⟨S185625x1, .i32⟩
  | 86 => ⟨S5625, .f32⟩
  | 87 => ⟨S_, .f32⟩
  | 88 => ⟨S5625, .f32⟩
  | 89 => ⟨S5625, .i1⟩
  | 90 => ⟨S_, .f32⟩
  | 91 => ⟨S5625, .f32⟩
  | 92 => ⟨S5625, .f32⟩
  | 93 => ⟨S_, .f32⟩
  | 94 => ⟨S_, .f32⟩
  | 95 => ⟨S5625, .f32⟩
  | 96 => ⟨S5625, .f32⟩
  | 97 => ⟨S_, .i32⟩
  | 98 => ⟨S185625, .i32⟩
  | 99 => ⟨S185625, .i1⟩
  | 100 => ⟨S_, .i32⟩
  | 101 => ⟨S185625, .i32⟩
  | 102 => ⟨S185625, .i32⟩
  | 103 => ⟨S185625, .i32⟩
  | 104 => ⟨S185625x1, .i32⟩
  | 105 => ⟨S185625, .f32⟩
  | 106 => ⟨S_, .i32⟩
  | 107 => ⟨S185625, .i32⟩
  | 108 => ⟨S185625, .i1⟩
  | 109 => ⟨S_, .i32⟩
  | 110 => ⟨S185625, .i32⟩
  | 111 => ⟨S185625, .i32⟩
  | 112 => ⟨S185625, .i32⟩
  | 113 => ⟨S185625x1, .i32⟩
  | 114 => ⟨S185625, .f32⟩
  | 115 => ⟨S185625, .f32⟩
  | 116 => ⟨S_, .i32⟩
  | 117 => ⟨S185625, .i32⟩
  | 118 => ⟨S185625, .i1⟩
  | 119 => ⟨S_, .i32⟩
  | 120 => ⟨S185625, .i32⟩
  | 121 => ⟨S185625, .i32⟩
  | 122 => ⟨S185625, .i32⟩
  | 123 => ⟨S185625x1, .i32⟩
  | 124 => ⟨S185625x2, .f32⟩
  | 125 => ⟨S185625x1, .f32⟩
  | 126 => ⟨S185625x2, .f32⟩
  | 127 => ⟨S185625x2, .f32⟩
  | _ => ⟨S85x256, .f32⟩

abbrev hbmTy0_1 (i : Nat) : BufTy := match i % 128 with
  | 0 => ⟨S_, .f32⟩
  | 1 => ⟨S5625x2, .f32⟩
  | 2 => ⟨S185625x1, .i32⟩
  | 3 => ⟨S5625x2, .f32⟩
  | 4 => ⟨S1x2, .f32⟩
  | 5 => ⟨S5625x2, .f32⟩
  | 6 => ⟨S5625x2, .f32⟩
  | 7 => ⟨S250x45, .f32⟩
  | 8 => ⟨S68x5, .f32⟩
  | 9 => ⟨S45x5, .f32⟩
  | 10 => ⟨S1x5, .f32⟩
  | 11 => ⟨S250x5, .f32⟩
  | _ => ⟨S85x256, .f32⟩

abbrev hbmTy (i : Nat) : BufTy := match i / 128 with
  | 0 => hbmTy0_0 i
  | 1 => hbmTy0_1 i
  | _ => ⟨S85x256, .f32⟩

abbrev bufTy : (tb : Table) → Fin (tcTables nBuf tb) → BufTy
  | .hbm, ⟨i, _⟩ => hbmTy i
  | .local _ .vmem, ⟨0, _⟩ => ⟨S85x256, .f32⟩
  | .local _ .vmem, ⟨1, _⟩ => ⟨S256x200, .f32⟩
  | .local _ .vmem, ⟨2, _⟩ => ⟨S85x200, .f32⟩
  | .local _ .vmem, ⟨3, _⟩ => ⟨S5625x128, .f32⟩
  | .local _ .vmem, ⟨4, _⟩ => ⟨S128x2, .f32⟩
  | .local _ .vmem, ⟨5, _⟩ => ⟨S5625x2, .f32⟩
  | .local _ .vmem, ⟨6, _⟩ => ⟨S250x68, .f32⟩
  | .local _ .vmem, ⟨7, _⟩ => ⟨S250x45, .f32⟩
  | .local _ .vmem, ⟨8, _⟩ => ⟨S68x5, .f32⟩
  | .local _ .vmem, ⟨9, _⟩ => ⟨S45x5, .f32⟩
  | .local _ .vmem, ⟨10, _⟩ => ⟨S1x5, .f32⟩
  | .local _ .vmem, ⟨11, _⟩ => ⟨S250x5, .f32⟩
  | _, _ => ⟨S85x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_call1_v0 : Ref sig .tc := ⟨.hbm, 94, rfl⟩
abbrev main_call1_v1 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc2_sem3_0 : DmaSem sig := 9
abbrev cc2_sem4_0 : DmaSem sig := 10
abbrev cc2_sem5_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S85x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S85x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S5625x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5625x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S250x68 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S250x45 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S68x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S45x5 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x5 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S250x5 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  inb_S85x256_S85x256_0_0 : ∀ a, (![0, 0] : Fin 2 → Nat) a + S85x256.size a ≤ S85x256.size a
  h_S85x256 : 0 < S85x256.numel
  bitsLt_bf16_f32 : FTy.bits .bf16 < FTy.bits .f32
  inb_S256x200_S256x200_0_0 : ∀ a, (![0, 0] : Fin 2 → Nat) a + S256x200.size a ≤ S256x200.size a
  h_S256x200 : 0 < S256x200.numel
  inb_S85x200_S85x200_0_0 : ∀ a, (![0, 0] : Fin 2 → Nat) a + S85x200.size a ≤ S85x200.size a
  h_S85x200 : 0 < S85x200.numel
  slices_S2x1360_S1x1360_0_0 : S2x1360.Slices ![0, 0] S1x1360
  shapeCasts_S1x1360_S1360 : S1x1360.ShapeCasts S1360
  concatenates_S1360_S85_S1445_d0 : Shape.Concatenates [S1360, S85] S1445 0
  slices_S2x1360_S1x1360_1_0 : S2x1360.Slices ![1, 0] S1x1360
  bcast_S_S1445 : S_.BroadcastsInDim S1445 (![] : Fin 0 → Fin S1445.rank)
  bcast_S_S85 : S_.BroadcastsInDim S85 (![] : Fin 0 → Fin S85.rank)
  bcast_S1445_S1445x1_0 : S1445.BroadcastsInDim S1445x1 (![0] : Fin 1 → Fin S1445x1.rank)
  bcast_S1445x1_S1445x200_0_1 : S1445x1.BroadcastsInDim S1445x200 (![0, 1] : Fin 2 → Fin S1445x200.rank)
  bcast_S_S85x200 : S_.BroadcastsInDim S85x200 (![] : Fin 0 → Fin S85x200.rank)
  bcast_S200_S1x200_1 : S200.BroadcastsInDim S1x200 (![1] : Fin 1 → Fin S1x200.rank)
  bcast_S1x200_S85x200_0_1 : S1x200.BroadcastsInDim S85x200 (![0, 1] : Fin 2 → Fin S85x200.rank)
  shapeCasts_S85x200_S250x68 : S85x200.ShapeCasts S250x68
  inb_S5625x128_S5625x128_0_0 : ∀ a, (![0, 0] : Fin 2 → Nat) a + S5625x128.size a ≤ S5625x128.size a
  h_S5625x128 : 0 < S5625x128.numel
  inb_S128x2_S128x2_0_0 : ∀ a, (![0, 0] : Fin 2 → Nat) a + S128x2.size a ≤ S128x2.size a
  h_S128x2 : 0 < S128x2.numel
  inb_S5625x2_S5625x2_0_0 : ∀ a, (![0, 0] : Fin 2 → Nat) a + S5625x2.size a ≤ S5625x2.size a
  h_S5625x2 : 0 < S5625x2.numel
  slices_S2x180000_S1x180000_0_0 : S2x180000.Slices ![0, 0] S1x180000
  shapeCasts_S1x180000_S180000 : S1x180000.ShapeCasts S180000
  concatenates_S180000_S5625_S185625_d0 : Shape.Concatenates [S180000, S5625] S185625 0
  slices_S2x180000_S1x180000_1_0 : S2x180000.Slices ![1, 0] S1x180000
  bcast_S_S185625 : S_.BroadcastsInDim S185625 (![] : Fin 0 → Fin S185625.rank)
  bcast_S_S5625 : S_.BroadcastsInDim S5625 (![] : Fin 0 → Fin S5625.rank)
  bcast_S185625_S185625x1_0 : S185625.BroadcastsInDim S185625x1 (![0] : Fin 1 → Fin S185625x1.rank)
  bcast_S185625x1_S185625x2_0_1 : S185625x1.BroadcastsInDim S185625x2 (![0, 1] : Fin 2 → Fin S185625x2.rank)
  bcast_S_S5625x2 : S_.BroadcastsInDim S5625x2 (![] : Fin 0 → Fin S5625x2.rank)
  bcast_S2_S1x2_1 : S2.BroadcastsInDim S1x2 (![1] : Fin 1 → Fin S1x2.rank)
  bcast_S1x2_S5625x2_0_1 : S1x2.BroadcastsInDim S5625x2 (![0, 1] : Fin 2 → Fin S5625x2.rank)
  shapeCasts_S5625x2_S250x45 : S5625x2.ShapeCasts S250x45
  slices_S113x5_S68x5_0_0 : S113x5.Slices ![0, 0] S68x5
  slices_S113x5_S45x5_68_0 : S113x5.Slices ![68, 0] S45x5
  shapeCasts_S5_S1x5 : S5.ShapeCasts S1x5
  inb_S250x68_S250x68_0_0 : ∀ a, (![0, 0] : Fin 2 → Nat) a + S250x68.size a ≤ S250x68.size a
  h_S250x68 : 0 < S250x68.numel
  shapeCasts_S250x68_S250x68 : S250x68.ShapeCasts S250x68
  inb_S250x45_S250x45_0_0 : ∀ a, (![0, 0] : Fin 2 → Nat) a + S250x45.size a ≤ S250x45.size a
  h_S250x45 : 0 < S250x45.numel
  shapeCasts_S250x45_S250x45 : S250x45.ShapeCasts S250x45
  inb_S68x5_S68x5_0_0 : ∀ a, (![0, 0] : Fin 2 → Nat) a + S68x5.size a ≤ S68x5.size a
  h_S68x5 : 0 < S68x5.numel
  shapeCasts_S68x5_S68x5 : S68x5.ShapeCasts S68x5
  inb_S45x5_S45x5_0_0 : ∀ a, (![0, 0] : Fin 2 → Nat) a + S45x5.size a ≤ S45x5.size a
  h_S45x5 : 0 < S45x5.numel
  shapeCasts_S45x5_S45x5 : S45x5.ShapeCasts S45x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S250x5 : S1x5.Broadcasts S250x5
  inb_S250x5_S250x5_0_0 : ∀ a, (![0, 0] : Fin 2 → Nat) a + S250x5.size a ≤ S250x5.size a
  h_S250x5 : 0 < S250x5.numel
  dot_S85x256_S256x200_S85x200_1_0_0_1_n_n_wf : DotDims.WF S85x256 S256x200 S85x200 [1] [0] [0] [1] [] []
  scatter_S85_S1445x1_S1445_n_0_0_1_wf : ScatterDims.WF S85 S1445x1 S1445 [] [0] [0] 1
  gather_S85_S1445x1_S1445_n_0_n_n_0_1_1_wf : GatherDims.WF S85 S1445x1 S1445 [] [0] [] [0] [] 1 ![1]
  gather_S85x200_S1445x1_S1445x200_1_0_n_n_0_1_1200_wf : GatherDims.WF S85x200 S1445x1 S1445x200 [1] [0] [] [0] [] 1 ![1, 200]
  scatter_S85x200_S1445x1_S1445x200_1_0_0_1_wf : ScatterDims.WF S85x200 S1445x1 S1445x200 [1] [0] [0] 1
  dot_S5625x128_S128x2_S5625x2_1_0_0_1_n_n_wf : DotDims.WF S5625x128 S128x2 S5625x2 [1] [0] [0] [1] [] []
  scatter_S5625_S185625x1_S185625_n_0_0_1_wf : ScatterDims.WF S5625 S185625x1 S185625 [] [0] [0] 1
  gather_S5625_S185625x1_S185625_n_0_n_n_0_1_1_wf : GatherDims.WF S5625 S185625x1 S185625 [] [0] [] [0] [] 1 ![1]
  gather_S5625x2_S185625x1_S185625x2_1_0_n_n_0_1_12_wf : GatherDims.WF S5625x2 S185625x1 S185625x2 [1] [0] [] [0] [] 1 ![1, 2]
  scatter_S5625x2_S185625x1_S185625x2_1_0_0_1_wf : ScatterDims.WF S5625x2 S185625x1 S185625x2 [1] [0] [0] 1
  dot_S250x68_S68x5_S250x5_1_0_0_1_n_n_wf : DotDims.WF S250x68 S68x5 S250x5 [1] [0] [0] [1] [] []
  dot_S250x45_S45x5_S250x5_1_0_0_1_n_n_wf : DotDims.WF S250x45 S45x5 S250x5 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S85x256.size a ≤ S85x256.size a
  hwx0_0 : ∀ i : grid0.Coords, EltTy.bits .f32 = 32 ∨ (Rect.block (s := S85x256) S85x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x200.size a ≤ S256x200.size a
  hwx0_1 : ∀ i : grid0.Coords, EltTy.bits .f32 = 32 ∨ (Rect.block (s := S256x200) S256x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S85x200.size a ≤ S85x200.size a
  hwx0_2 : ∀ i : grid0.Coords, EltTy.bits .f32 = 32 ∨ (Rect.block (s := S85x200) S85x200.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S5625x128.size a ≤ S5625x128.size a
  hwx1_0 : ∀ i : grid1.Coords, EltTy.bits .f32 = 32 ∨ (Rect.block (s := S5625x128) S5625x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5625x2.size a ≤ S5625x2.size a
  hwx1_2 : ∀ i : grid1.Coords, EltTy.bits .f32 = 32 ∨ (Rect.block (s := S5625x2) S5625x2.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S250x68.size a ≤ S250x68.size a
  hwx2_0 : ∀ i : grid2.Coords, EltTy.bits .f32 = 32 ∨ (Rect.block (s := S250x68) S250x68.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S250x45.size a ≤ S250x45.size a
  hwx2_1 : ∀ i : grid2.Coords, EltTy.bits .f32 = 32 ∨ (Rect.block (s := S250x45) S250x45.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S68x5.size a ≤ S68x5.size a
  hwx2_2 : ∀ i : grid2.Coords, EltTy.bits .f32 = 32 ∨ (Rect.block (s := S68x5) S68x5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S45x5.size a ≤ S45x5.size a
  hwx2_3 : ∀ i : grid2.Coords, EltTy.bits .f32 = 32 ∨ (Rect.block (s := S45x5) S45x5.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x5.size a ≤ S1x5.size a
  hwx2_4 : ∀ i : grid2.Coords, EltTy.bits .f32 = 32 ∨ (Rect.block (s := S1x5) S1x5.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S250x5.size a ≤ S250x5.size a
  hwx2_5 : ∀ i : grid2.Coords, EltTy.bits .f32 = 32 ∨ (Rect.block (s := S250x5) S250x5.size (cc2_transform_5 i) (hinb2_5 i)).WholeWords (EltTy.packing .f32)

variable [Facts₀]

def dot_S85x256_S256x200_S85x200_1_0_0_1_n_n : DotDims S85x256 S256x200 S85x200 where
  lhsContracting := [1]
  rhsContracting := [0]
  lhsNonContracting := [0]
  rhsNonContracting := [1]
  lhsBatch := []
  rhsBatch := []
  wf := dot_S85x256_S256x200_S85x200_1_0_0_1_n_n_wf
def scatter_S85_S1445x1_S1445_n_0_0_1 : ScatterDims S85 S1445x1 S1445 where
  updateWindowDims := []
  insertedWindowDims := [0]
  scatterDimsToOperandDims := [0]
  indexVectorDim := 1
  wf := scatter_S85_S1445x1_S1445_n_0_0_1_wf
def gather_S85_S1445x1_S1445_n_0_n_n_0_1_1 : GatherDims S85 S1445x1 S1445 where
  offsetDims := []
  collapsedSliceDims := [0]
  operandBatchingDims := []
  startIndicesBatchingDims := []
  startIndexMap := [0]
  indexVectorDim := 1
  sliceSizes := ![1]
  wf := gather_S85_S1445x1_S1445_n_0_n_n_0_1_1_wf
def gather_S85x200_S1445x1_S1445x200_1_0_n_n_0_1_1200 : GatherDims S85x200 S1445x1 S1445x200 where
  offsetDims := [1]
  collapsedSliceDims := [0]
  operandBatchingDims := []
  startIndicesBatchingDims := []
  startIndexMap := [0]
  indexVectorDim := 1
  sliceSizes := ![1, 200]
  wf := gather_S85x200_S1445x1_S1445x200_1_0_n_n_0_1_1200_wf
def scatter_S85x200_S1445x1_S1445x200_1_0_0_1 : ScatterDims S85x200 S1445x1 S1445x200 where
  updateWindowDims := [1]
  insertedWindowDims := [0]
  scatterDimsToOperandDims := [0]
  indexVectorDim := 1
  wf := scatter_S85x200_S1445x1_S1445x200_1_0_0_1_wf
def dot_S5625x128_S128x2_S5625x2_1_0_0_1_n_n : DotDims S5625x128 S128x2 S5625x2 where
  lhsContracting := [1]
  rhsContracting := [0]
  lhsNonContracting := [0]
  rhsNonContracting := [1]
  lhsBatch := []
  rhsBatch := []
  wf := dot_S5625x128_S128x2_S5625x2_1_0_0_1_n_n_wf
def scatter_S5625_S185625x1_S185625_n_0_0_1 : ScatterDims S5625 S185625x1 S185625 where
  updateWindowDims := []
  insertedWindowDims := [0]
  scatterDimsToOperandDims := [0]
  indexVectorDim := 1
  wf := scatter_S5625_S185625x1_S185625_n_0_0_1_wf
def gather_S5625_S185625x1_S185625_n_0_n_n_0_1_1 : GatherDims S5625 S185625x1 S185625 where
  offsetDims := []
  collapsedSliceDims := [0]
  operandBatchingDims := []
  startIndicesBatchingDims := []
  startIndexMap := [0]
  indexVectorDim := 1
  sliceSizes := ![1]
  wf := gather_S5625_S185625x1_S185625_n_0_n_n_0_1_1_wf
def gather_S5625x2_S185625x1_S185625x2_1_0_n_n_0_1_12 : GatherDims S5625x2 S185625x1 S185625x2 where
  offsetDims := [1]
  collapsedSliceDims := [0]
  operandBatchingDims := []
  startIndicesBatchingDims := []
  startIndexMap := [0]
  indexVectorDim := 1
  sliceSizes := ![1, 2]
  wf := gather_S5625x2_S185625x1_S185625x2_1_0_n_n_0_1_12_wf
def scatter_S5625x2_S185625x1_S185625x2_1_0_0_1 : ScatterDims S5625x2 S185625x1 S185625x2 where
  updateWindowDims := [1]
  insertedWindowDims := [0]
  scatterDimsToOperandDims := [0]
  indexVectorDim := 1
  wf := scatter_S5625x2_S185625x1_S185625x2_1_0_0_1_wf
def dot_S250x68_S68x5_S250x5_1_0_0_1_n_n : DotDims S250x68 S68x5 S250x5 where
  lhsContracting := [1]
  rhsContracting := [0]
  lhsNonContracting := [0]
  rhsNonContracting := [1]
  lhsBatch := []
  rhsBatch := []
  wf := dot_S250x68_S68x5_S250x5_1_0_0_1_n_n_wf
def dot_S250x45_S45x5_S250x5_1_0_0_1_n_n : DotDims S250x45 S45x5 S250x5 where
  lhsContracting := [1]
  rhsContracting := [0]
  lhsNonContracting := [0]
  rhsNonContracting := [1]
  lhsBatch := []
  rhsBatch := []
  wf := dot_S250x45_S45x5_S250x5_1_0_0_1_n_n_wf

abbrev win0_0 : Pipeline.Window sig grid0 :=
  Pipeline.Window.ofSpec (Memref.whole main_arg0) S85x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S85x200.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5625x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5625x2.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S250x68.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v97) S250x45.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v98) S68x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v99) S45x5.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v100) S1x5.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v101) S250x5.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S85x256 : Shape := ⟨2, ![85, 256]⟩
abbrev S5625x128 : Shape := ⟨2, ![5625, 128]⟩
abbrev S256x200 : Shape := ⟨2, ![256, 200]⟩
abbrev S200 : Shape := ⟨1, ![200]⟩
abbrev S128x2 : Shape := ⟨2, ![128, 2]⟩
abbrev S2 : Shape := ⟨1, ![2]⟩
abbrev S113x5 : Shape := ⟨2, ![113, 5]⟩
abbrev S5 : Shape := ⟨1, ![5]⟩
abbrev S2x1360 : Shape := ⟨2, ![2, 1360]⟩
abbrev S2x180000 : Shape := ⟨2, ![2, 180000]⟩
abbrev S85x200 : Shape := ⟨2, ![85, 200]⟩
abbrev S85 : Shape := ⟨1, ![85]⟩
abbrev S1x1360 : Shape := ⟨2, ![1, 1360]⟩
abbrev S1360 : Shape := ⟨1, ![1360]⟩
abbrev S1445 : Shape := ⟨1, ![1445]⟩
abbrev S_ : Shape := ⟨0, ![]⟩
abbrev S1445x1 : Shape := ⟨2, ![1445, 1]⟩
abbrev S1445x200 : Shape := ⟨2, ![1445, 200]⟩
abbrev S1x200 : Shape := ⟨2, ![1, 200]⟩
abbrev S250x68 : Shape := ⟨2, ![250, 68]⟩
abbrev S5625x2 : Shape := ⟨2, ![5625, 2]⟩
abbrev S5625 : Shape := ⟨1, ![5625]⟩
abbrev S1x180000 : Shape := ⟨2, ![1, 180000]⟩
abbrev S180000 : Shape := ⟨1, ![180000]⟩
abbrev S185625 : Shape := ⟨1, ![185625]⟩
abbrev S185625x1 : Shape := ⟨2, ![185625, 1]⟩
abbrev S185625x2 : Shape := ⟨2, ![185625, 2]⟩
abbrev S1x2 : Shape := ⟨2, ![1, 2]⟩
abbrev S250x45 : Shape := ⟨2, ![250, 45]⟩
abbrev S250x113 : Shape := ⟨2, ![250, 113]⟩
abbrev S250x5 : Shape := ⟨2, ![250, 5]⟩
abbrev S1x5 : Shape := ⟨2, ![1, 5]⟩

abbrev nBuf : Space → Nat
  | .hbm => 144
  | .vmem => 0
  | .smem => 0
  | _ => 0

abbrev hbmTy0_0 (i : Nat) : BufTy := match i % 128 with
  | 0 => ⟨S85x256, .f32⟩
  | 1 => ⟨S5625x128, .f32⟩
  | 2 => ⟨S256x200, .f32⟩
  | 3 => ⟨S200, .f32⟩
  | 4 => ⟨S128x2, .f32⟩
  | 5 => ⟨S2, .f32⟩
  | 6 => ⟨S113x5, .f32⟩
  | 7 => ⟨S5, .f32⟩
  | 8 => ⟨S2x1360, .i32⟩
  | 9 => ⟨S2x180000, .i32⟩
  | 10 => ⟨S85x200, .f32⟩
  | 11 => ⟨S85, .i32⟩
  | 12 => ⟨S1x1360, .i32⟩
  | 13 => ⟨S1360, .i32⟩
  | 14 => ⟨S1445, .i32⟩
  | 15 => ⟨S1x1360, .i32⟩
  | 16 => ⟨S1360, .i32⟩
  | 17 => ⟨S1445, .i32⟩
  | 18 => ⟨S_, .f32⟩
  | 19 => ⟨S1445, .f32⟩
  | 20 => ⟨S_, .f32⟩
  | 21 => ⟨S85, .f32⟩
  | 22 => ⟨S1445x1, .i32⟩
  | 23 => ⟨S85, .f32⟩
  | 24 => ⟨S_, .f32⟩
  | 25 => ⟨S85, .f32⟩
  | 26 => ⟨S85, .i1⟩
  | 27 => ⟨S_, .f32⟩
  | 28 => ⟨S85, .f32⟩
  | 29 => ⟨S85, .f32⟩
  | 30 => ⟨S_, .f32⟩
  | 31 => ⟨S_, .f32⟩
  | 32 => ⟨S85, .f32⟩
  | 33 => ⟨S85, .f32⟩
  | 34 => ⟨S_, .i32⟩
  | 35 => ⟨S1445, .i32⟩
  | 36 => ⟨S1445, .i1⟩
  | 37 => ⟨S_, .i32⟩
  | 38 => ⟨S1445, .i32⟩
  | 39 => ⟨S1445, .i32⟩
  | 40 => ⟨S1445, .i32⟩
  | 41 => ⟨S1445x1, .i32⟩
  | 42 => ⟨S1445, .f32⟩
  | 43 => ⟨S_, .i32⟩
  | 44 => ⟨S1445, .i32⟩
  | 45 => ⟨S1445, .i1⟩
  | 46 => ⟨S_, .i32⟩
  | 47 => ⟨S1445, .i32⟩
  | 48 => ⟨S1445, .i32⟩
  | 49 => ⟨S1445, .i32⟩
  | 50 => ⟨S1445x1, .i32⟩
  | 51 => ⟨S1445, .f32⟩
  | 52 => ⟨S1445, .f32⟩
  | 53 => ⟨S_, .i32⟩
  | 54 => ⟨S1445, .i32⟩
  | 55 => ⟨S1445, .i1⟩
  | 56 => ⟨S_, .i32⟩
  | 57 => ⟨S1445, .i32⟩
  | 58 => ⟨S1445, .i32⟩
  | 59 => ⟨S1445, .i32⟩
  | 60 => ⟨S1445x1, .i32⟩
  | 61 => ⟨S1445x200, .f32⟩
  | 62 => ⟨S1445x1, .f32⟩
  | 63 => ⟨S1445x200, .f32⟩
  | 64 => ⟨S1445x200, .f32⟩
  | 65 => ⟨S_, .f32⟩
  | 66 => ⟨S85x200, .f32⟩
  | 67 => ⟨S1445x1, .i32⟩
  | 68 => ⟨S85x200, .f32⟩
  | 69 => ⟨S1x200, .f32⟩
  | 70 => ⟨S85x200, .f32⟩
  | 71 => ⟨S85x200, .f32⟩
  | 72 => ⟨S250x68, .f32⟩
  | 73 => ⟨S5625x2, .f32⟩
  | 74 => ⟨S5625, .i32⟩
  | 75 => ⟨S1x180000, .i32⟩
  | 76 => ⟨S180000, .i32⟩
  | 77 => ⟨S185625, .i32⟩
  | 78 => ⟨S1x180000, .i32⟩
  | 79 => ⟨S180000, .i32⟩
  | 80 => ⟨S185625, .i32⟩
  | 81 => ⟨S_, .f32⟩
  | 82 => ⟨S185625, .f32⟩
  | 83 => ⟨S_, .f32⟩
  | 84 => ⟨S5625, .f32⟩
  | 85 => ⟨S185625x1, .i32⟩
  | 86 => ⟨S5625, .f32⟩
  | 87 => ⟨S_, .f32⟩
  | 88 => ⟨S5625, .f32⟩
  | 89 => ⟨S5625, .i1⟩
  | 90 => ⟨S_, .f32⟩
  | 91 => ⟨S5625, .f32⟩
  | 92 => ⟨S5625, .f32⟩
  | 93 => ⟨S_, .f32⟩
  | 94 => ⟨S_, .f32⟩
  | 95 => ⟨S5625, .f32⟩
  | 96 => ⟨S5625, .f32⟩
  | 97 => ⟨S_, .i32⟩
  | 98 => ⟨S185625, .i32⟩
  | 99 => ⟨S185625, .i1⟩
  | 100 => ⟨S_, .i32⟩
  | 101 => ⟨S185625, .i32⟩
  | 102 => ⟨S185625, .i32⟩
  | 103 => ⟨S185625, .i32⟩
  | 104 => ⟨S185625x1, .i32⟩
  | 105 => ⟨S185625, .f32⟩
  | 106 => ⟨S_, .i32⟩
  | 107 => ⟨S185625, .i32⟩
  | 108 => ⟨S185625, .i1⟩
  | 109 => ⟨S_, .i32⟩
  | 110 => ⟨S185625, .i32⟩
  | 111 => ⟨S185625, .i32⟩
  | 112 => ⟨S185625, .i32⟩
  | 113 => ⟨S185625x1, .i32⟩
  | 114 => ⟨S185625, .f32⟩
  | 115 => ⟨S185625, .f32⟩
  | 116 => ⟨S_, .i32⟩
  | 117 => ⟨S185625, .i32⟩
  | 118 => ⟨S185625, .i1⟩
  | 119 => ⟨S_, .i32⟩
  | 120 => ⟨S185625, .i32⟩
  | 121 => ⟨S185625, .i32⟩
  | 122 => ⟨S185625, .i32⟩
  | 123 => ⟨S185625x1, .i32⟩
  | 124 => ⟨S185625x2, .f32⟩
  | 125 => ⟨S185625x1, .f32⟩
  | 126 => ⟨S185625x2, .f32⟩
  | 127 => ⟨S185625x2, .f32⟩
  | _ => ⟨S85x256, .f32⟩

abbrev hbmTy0_1 (i : Nat) : BufTy := match i % 128 with
  | 0 => ⟨S_, .f32⟩
  | 1 => ⟨S5625x2, .f32⟩
  | 2 => ⟨S185625x1, .i32⟩
  | 3 => ⟨S5625x2, .f32⟩
  | 4 => ⟨S1x2, .f32⟩
  | 5 => ⟨S5625x2, .f32⟩
  | 6 => ⟨S5625x2, .f32⟩
  | 7 => ⟨S250x45, .f32⟩
  | 8 => ⟨S250x113, .f32⟩
  | 9 => ⟨S_, .f32⟩
  | 10 => ⟨S250x113, .f32⟩
  | 11 => ⟨S250x113, .f32⟩
  | 12 => ⟨S250x5, .f32⟩
  | 13 => ⟨S1x5, .f32⟩
  | 14 => ⟨S250x5, .f32⟩
  | 15 => ⟨S250x5, .f32⟩
  | _ => ⟨S85x256, .f32⟩

abbrev hbmTy (i : Nat) : BufTy := match i / 128 with
  | 0 => hbmTy0_0 i
  | 1 => hbmTy0_1 i
  | _ => ⟨S85x256, .f32⟩

abbrev bufTy : (tb : Table) → Fin (tcTables nBuf tb) → BufTy
  | .hbm, ⟨i, _⟩ => hbmTy i
  | _, _ => ⟨S85x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_call1_v0 : Ref sig .tc := ⟨.hbm, 94, rfl⟩
abbrev main_call1_v1 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call2_cst : Ref sig .tc := ⟨.hbm, 137, rfl⟩
abbrev main_call2_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x1360_S1x1360_0_0 : S2x1360.Slices ![0, 0] S1x1360
  shapeCasts_S1x1360_S1360 : S1x1360.ShapeCasts S1360
  concatenates_S1360_S85_S1445_d0 : Shape.Concatenates [S1360, S85] S1445 0
  slices_S2x1360_S1x1360_1_0 : S2x1360.Slices ![1, 0] S1x1360
  bcast_S_S1445 : S_.BroadcastsInDim S1445 (![] : Fin 0 → Fin S1445.rank)
  bcast_S_S85 : S_.BroadcastsInDim S85 (![] : Fin 0 → Fin S85.rank)
  bcast_S1445_S1445x1_0 : S1445.BroadcastsInDim S1445x1 (![0] : Fin 1 → Fin S1445x1.rank)
  bcast_S1445x1_S1445x200_0_1 : S1445x1.BroadcastsInDim S1445x200 (![0, 1] : Fin 2 → Fin S1445x200.rank)
  bcast_S_S85x200 : S_.BroadcastsInDim S85x200 (![] : Fin 0 → Fin S85x200.rank)
  bcast_S200_S1x200_1 : S200.BroadcastsInDim S1x200 (![1] : Fin 1 → Fin S1x200.rank)
  bcast_S1x200_S85x200_0_1 : S1x200.BroadcastsInDim S85x200 (![0, 1] : Fin 2 → Fin S85x200.rank)
  shapeCasts_S85x200_S250x68 : S85x200.ShapeCasts S250x68
  slices_S2x180000_S1x180000_0_0 : S2x180000.Slices ![0, 0] S1x180000
  shapeCasts_S1x180000_S180000 : S1x180000.ShapeCasts S180000
  concatenates_S180000_S5625_S185625_d0 : Shape.Concatenates [S180000, S5625] S185625 0
  slices_S2x180000_S1x180000_1_0 : S2x180000.Slices ![1, 0] S1x180000
  bcast_S_S185625 : S_.BroadcastsInDim S185625 (![] : Fin 0 → Fin S185625.rank)
  bcast_S_S5625 : S_.BroadcastsInDim S5625 (![] : Fin 0 → Fin S5625.rank)
  bcast_S185625_S185625x1_0 : S185625.BroadcastsInDim S185625x1 (![0] : Fin 1 → Fin S185625x1.rank)
  bcast_S185625x1_S185625x2_0_1 : S185625x1.BroadcastsInDim S185625x2 (![0, 1] : Fin 2 → Fin S185625x2.rank)
  bcast_S_S5625x2 : S_.BroadcastsInDim S5625x2 (![] : Fin 0 → Fin S5625x2.rank)
  bcast_S2_S1x2_1 : S2.BroadcastsInDim S1x2 (![1] : Fin 1 → Fin S1x2.rank)
  bcast_S1x2_S5625x2_0_1 : S1x2.BroadcastsInDim S5625x2 (![0, 1] : Fin 2 → Fin S5625x2.rank)
  shapeCasts_S5625x2_S250x45 : S5625x2.ShapeCasts S250x45
  concatenates_S250x68_S250x45_S250x113_d1 : Shape.Concatenates [S250x68, S250x45] S250x113 1
  bcast_S_S250x113 : S_.BroadcastsInDim S250x113 (![] : Fin 0 → Fin S250x113.rank)
  bcast_S5_S1x5_1 : S5.BroadcastsInDim S1x5 (![1] : Fin 1 → Fin S1x5.rank)
  bcast_S1x5_S250x5_0_1 : S1x5.BroadcastsInDim S250x5 (![0, 1] : Fin 2 → Fin S250x5.rank)
  dot_S85x256_S256x200_S85x200_1_0_0_1_n_n_wf : DotDims.WF S85x256 S256x200 S85x200 [1] [0] [0] [1] [] []
  scatter_S85_S1445x1_S1445_n_0_0_1_wf : ScatterDims.WF S85 S1445x1 S1445 [] [0] [0] 1
  gather_S85_S1445x1_S1445_n_0_n_n_0_1_1_wf : GatherDims.WF S85 S1445x1 S1445 [] [0] [] [0] [] 1 ![1]
  gather_S85x200_S1445x1_S1445x200_1_0_n_n_0_1_1200_wf : GatherDims.WF S85x200 S1445x1 S1445x200 [1] [0] [] [0] [] 1 ![1, 200]
  scatter_S85x200_S1445x1_S1445x200_1_0_0_1_wf : ScatterDims.WF S85x200 S1445x1 S1445x200 [1] [0] [0] 1
  dot_S5625x128_S128x2_S5625x2_1_0_0_1_n_n_wf : DotDims.WF S5625x128 S128x2 S5625x2 [1] [0] [0] [1] [] []
  scatter_S5625_S185625x1_S185625_n_0_0_1_wf : ScatterDims.WF S5625 S185625x1 S185625 [] [0] [0] 1
  gather_S5625_S185625x1_S185625_n_0_n_n_0_1_1_wf : GatherDims.WF S5625 S185625x1 S185625 [] [0] [] [0] [] 1 ![1]
  gather_S5625x2_S185625x1_S185625x2_1_0_n_n_0_1_12_wf : GatherDims.WF S5625x2 S185625x1 S185625x2 [1] [0] [] [0] [] 1 ![1, 2]
  scatter_S5625x2_S185625x1_S185625x2_1_0_0_1_wf : ScatterDims.WF S5625x2 S185625x1 S185625x2 [1] [0] [0] 1
  dot_S250x113_S113x5_S250x5_1_0_0_1_n_n_wf : DotDims.WF S250x113 S113x5 S250x5 [1] [0] [0] [1] [] []

variable [Facts₀]

def dot_S85x256_S256x200_S85x200_1_0_0_1_n_n : DotDims S85x256 S256x200 S85x200 where
  lhsContracting := [1]
  rhsContracting := [0]
  lhsNonContracting := [0]
  rhsNonContracting := [1]
  lhsBatch := []
  rhsBatch := []
  wf := dot_S85x256_S256x200_S85x200_1_0_0_1_n_n_wf
def scatter_S85_S1445x1_S1445_n_0_0_1 : ScatterDims S85 S1445x1 S1445 where
  updateWindowDims := []
  insertedWindowDims := [0]
  scatterDimsToOperandDims := [0]
  indexVectorDim := 1
  wf := scatter_S85_S1445x1_S1445_n_0_0_1_wf
def gather_S85_S1445x1_S1445_n_0_n_n_0_1_1 : GatherDims S85 S1445x1 S1445 where
  offsetDims := []
  collapsedSliceDims := [0]
  operandBatchingDims := []
  startIndicesBatchingDims := []
  startIndexMap := [0]
  indexVectorDim := 1
  sliceSizes := ![1]
  wf := gather_S85_S1445x1_S1445_n_0_n_n_0_1_1_wf
def gather_S85x200_S1445x1_S1445x200_1_0_n_n_0_1_1200 : GatherDims S85x200 S1445x1 S1445x200 where
  offsetDims := [1]
  collapsedSliceDims := [0]
  operandBatchingDims := []
  startIndicesBatchingDims := []
  startIndexMap := [0]
  indexVectorDim := 1
  sliceSizes := ![1, 200]
  wf := gather_S85x200_S1445x1_S1445x200_1_0_n_n_0_1_1200_wf
def scatter_S85x200_S1445x1_S1445x200_1_0_0_1 : ScatterDims S85x200 S1445x1 S1445x200 where
  updateWindowDims := [1]
  insertedWindowDims := [0]
  scatterDimsToOperandDims := [0]
  indexVectorDim := 1
  wf := scatter_S85x200_S1445x1_S1445x200_1_0_0_1_wf
def dot_S5625x128_S128x2_S5625x2_1_0_0_1_n_n : DotDims S5625x128 S128x2 S5625x2 where
  lhsContracting := [1]
  rhsContracting := [0]
  lhsNonContracting := [0]
  rhsNonContracting := [1]
  lhsBatch := []
  rhsBatch := []
  wf := dot_S5625x128_S128x2_S5625x2_1_0_0_1_n_n_wf
def scatter_S5625_S185625x1_S185625_n_0_0_1 : ScatterDims S5625 S185625x1 S185625 where
  updateWindowDims := []
  insertedWindowDims := [0]
  scatterDimsToOperandDims := [0]
  indexVectorDim := 1
  wf := scatter_S5625_S185625x1_S185625_n_0_0_1_wf
def gather_S5625_S185625x1_S185625_n_0_n_n_0_1_1 : GatherDims S5625 S185625x1 S185625 where
  offsetDims := []
  collapsedSliceDims := [0]
  operandBatchingDims := []
  startIndicesBatchingDims := []
  startIndexMap := [0]
  indexVectorDim := 1
  sliceSizes := ![1]
  wf := gather_S5625_S185625x1_S185625_n_0_n_n_0_1_1_wf
def gather_S5625x2_S185625x1_S185625x2_1_0_n_n_0_1_12 : GatherDims S5625x2 S185625x1 S185625x2 where
  offsetDims := [1]
  collapsedSliceDims := [0]
  operandBatchingDims := []
  startIndicesBatchingDims := []
  startIndexMap := [0]
  indexVectorDim := 1
  sliceSizes := ![1, 2]
  wf := gather_S5625x2_S185625x1_S185625x2_1_0_n_n_0_1_12_wf
def scatter_S5625x2_S185625x1_S185625x2_1_0_0_1 : ScatterDims S5625x2 S185625x1 S185625x2 where
  updateWindowDims := [1]
  insertedWindowDims := [0]
  scatterDimsToOperandDims := [0]
  indexVectorDim := 1
  wf := scatter_S5625x2_S185625x1_S185625x2_1_0_0_1_wf
def dot_S250x113_S113x5_S250x5_1_0_0_1_n_n : DotDims S250x113 S113x5 S250x5 where
  lhsContracting := [1]
  rhsContracting := [0]
  lhsNonContracting := [0]
  rhsNonContracting := [1]
  lhsBatch := []
  rhsBatch := []
  wf := dot_S250x113_S113x5_S250x5_1_0_0_1_n_n_wf

class Facts : Prop extends Facts₀ where

variable [Facts]
-- ==== Proof.KernelRun.lean ====
/-
  The kernel program's run with its RESULT read. The program is three launches among stretches of host
  operations; its run is the library's run of that chain of segments, at whose end every unscoped buffer
  holds the last boundary's contents (the fold `W9` through all host stretches and launches from the launch
  memory). The frame only keeps the arguments out of that; here the result buffer (the head's output array)
  is kept as well, still as the fold at that buffer. Unfolding the fold is the next module's business.
-/
import proofs.«131217_j52991306498332_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates, nothing
    faulting, with the result buffer at the last boundary's contents and the arguments as launched. -/
theorem run_fold : θ_run defs (onTc (τ := τ) (main (F := F))) ⟨m, fun _ => 0, ρ⟩ (fun r => ∀ c : Dev nD,
      r.2.mem ((c.tc : Thread nD τ).loc main_v101) = V9 m ρ c main_v101
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v101 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.RunValue

end
-- ==== Proof.ReferenceRun.lean ====
/-
  The reference program's run, with its result kept as the fold.

  The reference is a straight line of 134 host operations and no kernel launch; the library's run of such a line
  says that every weakly fair execution from a memory with zero counters terminates, nothing faulting, and every
  buffer ends at what the operations, applied in order to the launch contents, leave in it. Here that is kept for
  the result buffer as it stands (the fold at the result buffer: reading it back is the comparison's business),
  and for each argument the fold is walked back to the launch contents, since no operation writes an argument.
-/
import proofs.«131217_j52991306498332_2_alg».proof.Proof.ReferenceOps
import Idealize.ShloMosaic.Lib.StableHlo.Run

noncomputable section

namespace Cert.ReferenceIdeal.RunFold

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

set_option maxRecDepth 8192 in
set_option maxHeartbeats 16000000 in
/-- On every device, from any memory with zero counters: every weakly fair execution of the reference terminates with
    the result buffer at the operations' fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = StableHlo.after (ops (F := F)) (launchContents m c) (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v103,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RunFold

end
-- ==== Proof.RegionArrays.lean ====
/-
  Each of the three kernel launches has a grid of ONE point and windows whose block is the whole array, with
  index maps constantly zero. So a window's block at the point IS its array (the block's embedding is the
  identity on indices), what the point writes back is the body's stored value of the WHOLE input arrays, and
  that single write-back covers the output array. Hence, for any buffer contents `V` a launch is entered
  with, the launch's output array ends at the body's stored value (the skeleton's payload) of the arrays it
  reads:

    first projection   x₁ W₁  ↦  payload₀ x₁ W₁            (85×256 by 256×200)
    second projection  x₂ W₂  ↦  payload₁ x₂ W₂            (5625×128 by 128×2)
    head               h₁ h₂ Wf[:68] Wf[68:] bf  ↦  payload₂ …   (250×68, 250×45, 68×5, 45×5, 1×5)
-/
import proofs.«131217_j52991306498332_2_alg».proof.Proof.Gen.KernelIdeal.Frame
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The origin of a rank-two rectangle, as the constant function the view lemmas ask for. -/
theorem origin2 : (![0, 0] : Fin 2 → Nat) = fun _ => 0 := funext fun a => by fin_cases a <;> rfl

/-! ## Launch 0 -/

/-- Every window of this launch sits at block (0, 0) at every grid point (decided over the one point). -/
theorem idx0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 0's block is the whole 85×256 array: its embedding moves no index. -/
theorem emb0_0 (t : Fin cfg0.N) (j : S85x256.Idx) : ((cfg0.win 0).blk t).view.emb j = j := by
  have e := idx0_0 t
  funext a; apply Fin.ext
  match a with
  | ⟨0, _⟩ => show win0_0.index t (0 : Fin 2) * 85 + 1 * (j 0).val = (j 0).val; have := e.1; omega
  | ⟨1, _⟩ => show win0_0.index t (1 : Fin 2) * 256 + 1 * (j 1).val = (j 1).val; have := e.2; omega

/-- Window 1's block is the whole 256×200 array: its embedding moves no index. -/
theorem emb0_1 (t : Fin cfg0.N) (j : S256x200.Idx) : ((cfg0.win 1).blk t).view.emb j = j := by
  have e := idx0_1 t
  funext a; apply Fin.ext
  match a with
  | ⟨0, _⟩ => show win0_1.index t (0 : Fin 2) * 256 + 1 * (j 0).val = (j 0).val; have := e.1; omega
  | ⟨1, _⟩ => show win0_1.index t (1 : Fin 2) * 200 + 1 * (j 1).val = (j 1).val; have := e.2; omega

/-- Window 2's block is the whole 85×200 array: its embedding moves no index. -/
theorem emb0_2 (t : Fin cfg0.N) (j : S85x200.Idx) : ((cfg0.win 2).blk t).view.emb j = j := by
  have e := idx0_2 t
  funext a; apply Fin.ext
  match a with
  | ⟨0, _⟩ => show win0_2.index t (0 : Fin 2) * 85 + 1 * (j 0).val = (j 0).val; have := e.1; omega
  | ⟨1, _⟩ => show win0_2.index t (1 : Fin 2) * 200 + 1 * (j 1).val = (j 1).val; have := e.2; omega

/-- So input window 0's block, read off the array, is the array. -/
theorem iblk0_0 (c : Dev nD) (t : Fin cfg0.N) : iblk0 V c 0 t = V c main_arg0 := by
  funext j
  show V c main_arg0 (((cfg0.win 0).blk t).view.emb j) = V c main_arg0 j
  rw [emb0_0]

/-- So input window 1's block, read off the array, is the array. -/
theorem iblk0_1 (c : Dev nD) (t : Fin cfg0.N) : iblk0 V c 1 t = V c main_arg2 := by
  funext j
  show V c main_arg2 (((cfg0.win 1).blk t).view.emb j) = V c main_arg2 j
  rw [emb0_1]

/-- What the grid point writes back to the output array: the body's stored value of the whole input arrays. -/
theorem written0 (c : Dev nD) (t : Fin cfg0.N) :
    (dat0 V c).flushed 2 t = ((cfg0.win 2).blk t).view.read (Elt F) (k0_pay1 (V c main_arg0) (V c main_arg2)) := by
  show (cfg0.win 2).cut (grid0.coords t) ((dat0 V c).after 2 t) = _
  rw [after0_2]
  unfold out0_2
  rw [View.canon_unit_zero origin2]
  simp only [View.ld_unit_zero (S := S85x256) origin2, View.ld_unit_zero (S := S256x200) origin2]
  rw [iblk0_0, iblk0_1]
  funext j
  show k0_pay1 (V c main_arg0) (V c main_arg2) j = k0_pay1 (V c main_arg0) (V c main_arg2) (((cfg0.win 2).blk t).view.emb j)
  rw [emb0_2]

/-- The one write-back covers the output array. -/
theorem covered0 (i : S85x200.Idx) :
    ∃ t : Fin cfg0.N, (cfg0.win 2).flush t = true ∧ i ∈ ((cfg0.win 2).blk t).view.set := by
  refine ⟨t0_0, flush0_2 _, ?_⟩
  show i ∈ ((View.whole main_v0).slice (win0_2.rect t0_0)).set
  rw [View.set_slice_whole, Rect.mem_set_unit]
  have e := idx0_2 t0_0
  intro a
  match a with
  | ⟨0, _⟩ => show win0_2.index t0_0 (0 : Fin 2) * 85 ≤ (i 0).val ∧ (i 0).val < win0_2.index t0_0 (0 : Fin 2) * 85 + 85; have := e.1; have hi : (i 0).val < 85 := (i 0).isLt; omega
  | ⟨1, _⟩ => show win0_2.index t0_0 (1 : Fin 2) * 200 ≤ (i 1).val ∧ (i 1).val < win0_2.index t0_0 (1 : Fin 2) * 200 + 200; have := e.2; have hi : (i 1).val < 200 := (i 1).isLt; omega

/-- THE OUTPUT ARRAY after launch 0, from any entry contents: the body's stored value of the arrays it reads. -/
theorem array0 (c : Dev nD) : (dat0 V c).arrAt 2 cfg0.N = k0_pay1 (V c main_arg0) (V c main_arg2) :=
  (dat0 V c).arrAt_eq_of_cover 2 _ (fun t _ => written0 V c t) covered0

/-! ## Launch 1 -/

/-- Every window of this launch sits at block (0, 0) at every grid point (decided over the one point). -/
theorem idx1_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Window 0's block is the whole 5625×128 array: its embedding moves no index. -/
theorem emb1_0 (t : Fin cfg1.N) (j : S5625x128.Idx) : ((cfg1.win 0).blk t).view.emb j = j := by
  have e := idx1_0 t
  funext a; apply Fin.ext
  match a with
  | ⟨0, _⟩ => show win1_0.index t (0 : Fin 2) * 5625 + 1 * (j 0).val = (j 0).val; have := e.1; omega
  | ⟨1, _⟩ => show win1_0.index t (1 : Fin 2) * 128 + 1 * (j 1).val = (j 1).val; have := e.2; omega

/-- Window 1's block is the whole 128×2 array: its embedding moves no index. -/
theorem emb1_1 (t : Fin cfg1.N) (j : S128x2.Idx) : ((cfg1.win 1).blk t).view.emb j = j := by
  have e := idx1_1 t
  funext a; apply Fin.ext
  match a with
  | ⟨0, _⟩ => show win1_1.index t (0 : Fin 2) * 128 + 1 * (j 0).val = (j 0).val; have := e.1; omega
  | ⟨1, _⟩ => show win1_1.index t (1 : Fin 2) * 2 + 1 * (j 1).val = (j 1).val; have := e.2; omega

/-- Window 2's block is the whole 5625×2 array: its embedding moves no index. -/
theorem emb1_2 (t : Fin cfg1.N) (j : S5625x2.Idx) : ((cfg1.win 2).blk t).view.emb j = j := by
  have e := idx1_2 t
  funext a; apply Fin.ext
  match a with
  | ⟨0, _⟩ => show win1_2.index t (0 : Fin 2) * 5625 + 1 * (j 0).val = (j 0).val; have := e.1; omega
  | ⟨1, _⟩ => show win1_2.index t (1 : Fin 2) * 2 + 1 * (j 1).val = (j 1).val; have := e.2; omega

/-- So input window 0's block, read off the array, is the array. -/
theorem iblk1_0 (c : Dev nD) (t : Fin cfg1.N) : iblk1 V c 0 t = V c main_arg1 := by
  funext j
  show V c main_arg1 (((cfg1.win 0).blk t).view.emb j) = V c main_arg1 j
  rw [emb1_0]

/-- So input window 1's block, read off the array, is the array. -/
theorem iblk1_1 (c : Dev nD) (t : Fin cfg1.N) : iblk1 V c 1 t = V c main_arg4 := by
  funext j
  show V c main_arg4 (((cfg1.win 1).blk t).view.emb j) = V c main_arg4 j
  rw [emb1_1]

/-- What the grid point writes back to the output array: the body's stored value of the whole input arrays. -/
theorem written1 (c : Dev nD) (t : Fin cfg1.N) :
    (dat1 V c).flushed 2 t = ((cfg1.win 2).blk t).view.read (Elt F) (k1_pay1 (V c main_arg1) (V c main_arg4)) := by
  show (cfg1.win 2).cut (grid1.coords t) ((dat1 V c).after 2 t) = _
  rw [after1_2]
  unfold out1_2
  rw [View.canon_unit_zero origin2]
  simp only [View.ld_unit_zero (S := S5625x128) origin2, View.ld_unit_zero (S := S128x2) origin2]
  rw [iblk1_0, iblk1_1]
  funext j
  show k1_pay1 (V c main_arg1) (V c main_arg4) j = k1_pay1 (V c main_arg1) (V c main_arg4) (((cfg1.win 2).blk t).view.emb j)
  rw [emb1_2]

/-- The one write-back covers the output array. -/
theorem covered1 (i : S5625x2.Idx) :
    ∃ t : Fin cfg1.N, (cfg1.win 2).flush t = true ∧ i ∈ ((cfg1.win 2).blk t).view.set := by
  refine ⟨t1_0, flush1_2 _, ?_⟩
  show i ∈ ((View.whole main_v49).slice (win1_2.rect t1_0)).set
  rw [View.set_slice_whole, Rect.mem_set_unit]
  have e := idx1_2 t1_0
  intro a
  match a with
  | ⟨0, _⟩ => show win1_2.index t1_0 (0 : Fin 2) * 5625 ≤ (i 0).val ∧ (i 0).val < win1_2.index t1_0 (0 : Fin 2) * 5625 + 5625; have := e.1; have hi : (i 0).val < 5625 := (i 0).isLt; omega
  | ⟨1, _⟩ => show win1_2.index t1_0 (1 : Fin 2) * 2 ≤ (i 1).val ∧ (i 1).val < win1_2.index t1_0 (1 : Fin 2) * 2 + 2; have := e.2; have hi : (i 1).val < 2 := (i 1).isLt; omega

/-- THE OUTPUT ARRAY after launch 1, from any entry contents: the body's stored value of the arrays it reads. -/
theorem array1 (c : Dev nD) : (dat1 V c).arrAt 2 cfg1.N = k1_pay1 (V c main_arg1) (V c main_arg4) :=
  (dat1 V c).arrAt_eq_of_cover 2 _ (fun t _ => written1 V c t) covered1

/-! ## Launch 2 -/

/-- Every window of this launch sits at block (0, 0) at every grid point (decided over the one point). -/
theorem idx2_0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)

/-- Window 0's block is the whole 250×68 array: its embedding moves no index. -/
theorem emb2_0 (t : Fin cfg2.N) (j : S250x68.Idx) : ((cfg2.win 0).blk t).view.emb j = j := by
  have e := idx2_0 t
  funext a; apply Fin.ext
  match a with
  | ⟨0, _⟩ => show win2_0.index t (0 : Fin 2) * 250 + 1 * (j 0).val = (j 0).val; have := e.1; omega
  | ⟨1, _⟩ => show win2_0.index t (1 : Fin 2) * 68 + 1 * (j 1).val = (j 1).val; have := e.2; omega

/-- Window 1's block is the whole 250×45 array: its embedding moves no index. -/
theorem emb2_1 (t : Fin cfg2.N) (j : S250x45.Idx) : ((cfg2.win 1).blk t).view.emb j = j := by
  have e := idx2_1 t
  funext a; apply Fin.ext
  match a with
  | ⟨0, _⟩ => show win2_1.index t (0 : Fin 2) * 250 + 1 * (j 0).val = (j 0).val; have := e.1; omega
  | ⟨1, _⟩ => show win2_1.index t (1 : Fin 2) * 45 + 1 * (j 1).val = (j 1).val; have := e.2; omega

/-- Window 2's block is the whole 68×5 array: its embedding moves no index. -/
theorem emb2_2 (t : Fin cfg2.N) (j : S68x5.Idx) : ((cfg2.win 2).blk t).view.emb j = j := by
  have e := idx2_2 t
  funext a; apply Fin.ext
  match a with
  | ⟨0, _⟩ => show win2_2.index t (0 : Fin 2) * 68 + 1 * (j 0).val = (j 0).val; have := e.1; omega
  | ⟨1, _⟩ => show win2_2.index t (1 : Fin 2) * 5 + 1 * (j 1).val = (j 1).val; have := e.2; omega

/-- Window 3's block is the whole 45×5 array: its embedding moves no index. -/
theorem emb2_3 (t : Fin cfg2.N) (j : S45x5.Idx) : ((cfg2.win 3).blk t).view.emb j = j := by
  have e := idx2_3 t
  funext a; apply Fin.ext
  match a with
  | ⟨0, _⟩ => show win2_3.index t (0 : Fin 2) * 45 + 1 * (j 0).val = (j 0).val; have := e.1; omega
  | ⟨1, _⟩ => show win2_3.index t (1 : Fin 2) * 5 + 1 * (j 1).val = (j 1).val; have := e.2; omega

/-- Window 4's block is the whole 1×5 array: its embedding moves no index. -/
theorem emb2_4 (t : Fin cfg2.N) (j : S1x5.Idx) : ((cfg2.win 4).blk t).view.emb j = j := by
  have e := idx2_4 t
  funext a; apply Fin.ext
  match a with
  | ⟨0, _⟩ => show win2_4.index t (0 : Fin 2) * 1 + 1 * (j 0).val = (j 0).val; have := e.1; omega
  | ⟨1, _⟩ => show win2_4.index t (1 : Fin 2) * 5 + 1 * (j 1).val = (j 1).val; have := e.2; omega

/-- Window 5's block is the whole 250×5 array: its embedding moves no index. -/
theorem emb2_5 (t : Fin cfg2.N) (j : S250x5.Idx) : ((cfg2.win 5).blk t).view.emb j = j := by
  have e := idx2_5 t
  funext a; apply Fin.ext
  match a with
  | ⟨0, _⟩ => show win2_5.index t (0 : Fin 2) * 250 + 1 * (j 0).val = (j 0).val; have := e.1; omega
  | ⟨1, _⟩ => show win2_5.index t (1 : Fin 2) * 5 + 1 * (j 1).val = (j 1).val; have := e.2; omega

/-- So input window 0's block, read off the array, is the array. -/
theorem iblk2_0 (c : Dev nD) (t : Fin cfg2.N) : iblk2 V c 0 t = V c main_v48 := by
  funext j
  show V c main_v48 (((cfg2.win 0).blk t).view.emb j) = V c main_v48 j
  rw [emb2_0]

/-- So input window 1's block, read off the array, is the array. -/
theorem iblk2_1 (c : Dev nD) (t : Fin cfg2.N) : iblk2 V c 1 t = V c main_v97 := by
  funext j
  show V c main_v97 (((cfg2.win 1).blk t).view.emb j) = V c main_v97 j
  rw [emb2_1]

/-- So input window 2's block, read off the array, is the array. -/
theorem iblk2_2 (c : Dev nD) (t : Fin cfg2.N) : iblk2 V c 2 t = V c main_v98 := by
  funext j
  show V c main_v98 (((cfg2.win 2).blk t).view.emb j) = V c main_v98 j
  rw [emb2_2]

/-- So input window 3's block, read off the array, is the array. -/
theorem iblk2_3 (c : Dev nD) (t : Fin cfg2.N) : iblk2 V c 3 t = V c main_v99 := by
  funext j
  show V c main_v99 (((cfg2.win 3).blk t).view.emb j) = V c main_v99 j
  rw [emb2_3]

/-- So input window 4's block, read off the array, is the array. -/
theorem iblk2_4 (c : Dev nD) (t : Fin cfg2.N) : iblk2 V c 4 t = V c main_v100 := by
  funext j
  show V c main_v100 (((cfg2.win 4).blk t).view.emb j) = V c main_v100 j
  rw [emb2_4]

/-- What the grid point writes back to the output array: the body's stored value of the whole input arrays. -/
theorem written2 (c : Dev nD) (t : Fin cfg2.N) :
    (dat2 V c).flushed 5 t = ((cfg2.win 5).blk t).view.read (Elt F) (k2_pay1 (V c main_v48) (V c main_v97) (V c main_v98) (V c main_v99) (V c main_v100)) := by
  show (cfg2.win 5).cut (grid2.coords t) ((dat2 V c).after 5 t) = _
  rw [after2_5]
  unfold out2_5
  rw [View.canon_unit_zero origin2]
  simp only [View.ld_unit_zero (S := S250x68) origin2, View.ld_unit_zero (S := S250x45) origin2, View.ld_unit_zero (S := S68x5) origin2, View.ld_unit_zero (S := S45x5) origin2, View.ld_unit_zero (S := S1x5) origin2]
  rw [iblk2_0, iblk2_1, iblk2_2, iblk2_3, iblk2_4]
  funext j
  show k2_pay1 (V c main_v48) (V c main_v97) (V c main_v98) (V c main_v99) (V c main_v100) j = k2_pay1 (V c main_v48) (V c main_v97) (V c main_v98) (V c main_v99) (V c main_v100) (((cfg2.win 5).blk t).view.emb j)
  rw [emb2_5]

/-- The one write-back covers the output array. -/
theorem covered2 (i : S250x5.Idx) :
    ∃ t : Fin cfg2.N, (cfg2.win 5).flush t = true ∧ i ∈ ((cfg2.win 5).blk t).view.set := by
  refine ⟨t2_0, flush2_5 _, ?_⟩
  show i ∈ ((View.whole main_v101).slice (win2_5.rect t2_0)).set
  rw [View.set_slice_whole, Rect.mem_set_unit]
  have e := idx2_5 t2_0
  intro a
  match a with
  | ⟨0, _⟩ => show win2_5.index t2_0 (0 : Fin 2) * 250 ≤ (i 0).val ∧ (i 0).val < win2_5.index t2_0 (0 : Fin 2) * 250 + 250; have := e.1; have hi : (i 0).val < 250 := (i 0).isLt; omega
  | ⟨1, _⟩ => show win2_5.index t2_0 (1 : Fin 2) * 5 ≤ (i 1).val ∧ (i 1).val < win2_5.index t2_0 (1 : Fin 2) * 5 + 5; have := e.2; have hi : (i 1).val < 5 := (i 1).isLt; omega

/-- THE OUTPUT ARRAY after launch 2, from any entry contents: the body's stored value of the arrays it reads. -/
theorem array2 (c : Dev nD) : (dat2 V c).arrAt 5 cfg2.N = k2_pay1 (V c main_v48) (V c main_v97) (V c main_v98) (V c main_v99) (V c main_v100) :=
  (dat2 V c).arrAt_eq_of_cover 5 _ (fun t _ => written2 V c t) covered2

end Cert.KernelIdeal.Regions

end
-- ==== Proof.KernelFold.lean ====
/-
  What the kernel program's boundaries hold, read back through the fold.

  The run's buffer contents at each boundary are a fold through the program: launch 1 (the first projection),
  a stretch of host operations (the first graph aggregation), launch 2 (the second projection), a second stretch
  (the second aggregation, then the cut of the head's weight matrix into its first 68 and last 45 rows and the
  bias laid out as a row), launch 3 (the head). No host operation and no launch writes an argument after it is
  read, so every argument read at a later boundary is still the launch memory's; a launch's output array is its
  body's stored value of the arrays it reads (the launch arrays module); and the result buffer ends at the head's
  stored value of the five arrays the head reads, each still named by the boundary it is read at.
-/
import proofs.«131217_j52991306498332_2_alg».proof.Proof.Gen.KernelIdeal.Frame
import proofs.«131217_j52991306498332_2_alg».proof.Proof.RegionArrays
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## After launch 1 -/

/-- The first projection's array after its launch: the body's stored value of x₁ and W₁ as launched. -/
theorem first_projection (c : Dev nD) :
    W1 m ρ c (Proc.devRef .tc main_v0) = k0_pay1 (m ((c : Thread nD τ).loc main_arg0)) (m ((c : Thread nD τ).loc main_arg2)) :=
  (W1_arr m ρ c 2).trans (Regions.array0 (V0 m ρ) c)

/-- A buffer the first launch has no window on is as launched. -/
theorem after_first (c : Dev nD) (b : Ref sig .tc) (hb : ∀ w, Pipeline.arrRef spec0 w ≠ b) :
    W1 m ρ c (Proc.devRef .tc b) = m ((c : Thread nD τ).loc b) :=
  W1_of_ne m ρ c b hb

/-! ## At launch 2's entry: the arguments the later segments read are as launched -/

theorem entry2_arg1 (c : Dev nD) : W4 m ρ c (Proc.devRef .tc main_arg1) = m ((c : Thread nD τ).loc main_arg1) := by
  show StableHlo.after hostOps1_2 (StableHlo.after hostOps1_1 (StableHlo.after hostOps1 (W1 m ρ c))) (Proc.devRef .tc main_arg1) = _
  after_results_simp
  exact after_first m ρ c main_arg1 (by decide)
theorem entry2_arg4 (c : Dev nD) : W4 m ρ c (Proc.devRef .tc main_arg4) = m ((c : Thread nD τ).loc main_arg4) := by
  show StableHlo.after hostOps1_2 (StableHlo.after hostOps1_1 (StableHlo.after hostOps1 (W1 m ρ c))) (Proc.devRef .tc main_arg4) = _
  after_results_simp
  exact after_first m ρ c main_arg4 (by decide)
theorem entry2_arg5 (c : Dev nD) : W4 m ρ c (Proc.devRef .tc main_arg5) = m ((c : Thread nD τ).loc main_arg5) := by
  show StableHlo.after hostOps1_2 (StableHlo.after hostOps1_1 (StableHlo.after hostOps1 (W1 m ρ c))) (Proc.devRef .tc main_arg5) = _
  after_results_simp
  exact after_first m ρ c main_arg5 (by decide)
theorem entry2_arg6 (c : Dev nD) : W4 m ρ c (Proc.devRef .tc main_arg6) = m ((c : Thread nD τ).loc main_arg6) := by
  show StableHlo.after hostOps1_2 (StableHlo.after hostOps1_1 (StableHlo.after hostOps1 (W1 m ρ c))) (Proc.devRef .tc main_arg6) = _
  after_results_simp
  exact after_first m ρ c main_arg6 (by decide)
theorem entry2_arg7 (c : Dev nD) : W4 m ρ c (Proc.devRef .tc main_arg7) = m ((c : Thread nD τ).loc main_arg7) := by
  show StableHlo.after hostOps1_2 (StableHlo.after hostOps1_1 (StableHlo.after hostOps1 (W1 m ρ c))) (Proc.devRef .tc main_arg7) = _
  after_results_simp
  exact after_first m ρ c main_arg7 (by decide)
theorem entry2_arg9 (c : Dev nD) : W4 m ρ c (Proc.devRef .tc main_arg9) = m ((c : Thread nD τ).loc main_arg9) := by
  show StableHlo.after hostOps1_2 (StableHlo.after hostOps1_1 (StableHlo.after hostOps1 (W1 m ρ c))) (Proc.devRef .tc main_arg9) = _
  after_results_simp
  exact after_first m ρ c main_arg9 (by decide)

/-! ## After launch 2 -/

/-- The second projection's array after its launch: the body's stored value of x₂ and W₂ as launched. -/
theorem second_projection (c : Dev nD) :
    W5 m ρ c (Proc.devRef .tc main_v49) = k1_pay1 (m ((c : Thread nD τ).loc main_arg1)) (m ((c : Thread nD τ).loc main_arg4)) := by
  refine ((W5_arr m ρ c 2).trans (Regions.array1 (V4 m ρ) c)).trans ?_
  show k1_pay1 (W4 m ρ c (Proc.devRef .tc main_arg1)) (W4 m ρ c (Proc.devRef .tc main_arg4)) = _
  rw [entry2_arg1, entry2_arg4]

theorem after_second_arg5 (c : Dev nD) : W5 m ρ c (Proc.devRef .tc main_arg5) = m ((c : Thread nD τ).loc main_arg5) :=
  (W5_of_ne m ρ c main_arg5 (by decide)).trans (entry2_arg5 m ρ c)
theorem after_second_arg6 (c : Dev nD) : W5 m ρ c (Proc.devRef .tc main_arg6) = m ((c : Thread nD τ).loc main_arg6) :=
  (W5_of_ne m ρ c main_arg6 (by decide)).trans (entry2_arg6 m ρ c)
theorem after_second_arg7 (c : Dev nD) : W5 m ρ c (Proc.devRef .tc main_arg7) = m ((c : Thread nD τ).loc main_arg7) :=
  (W5_of_ne m ρ c main_arg7 (by decide)).trans (entry2_arg7 m ρ c)
theorem after_second_arg9 (c : Dev nD) : W5 m ρ c (Proc.devRef .tc main_arg9) = m ((c : Thread nD τ).loc main_arg9) :=
  (W5_of_ne m ρ c main_arg9 (by decide)).trans (entry2_arg9 m ρ c)

/-! ## At the head's entry -/

/-- The first 68 rows of the weight matrix, cut by the host. -/
theorem weights_top (c : Dev nD) :
    V8 m ρ c main_v98 = extractStridedSlice S68x5 ![0, 0] (m ((c : Thread nD τ).loc main_arg6)) slices_S113x5_S68x5_0_0 := by
  show StableHlo.after hostOps2_2 (StableHlo.after hostOps2_1 (StableHlo.after hostOps2 (W5 m ρ c))) (Proc.devRef .tc main_v98) = _
  after_results_simp
  rw [after_second_arg6]

/-- Its last 45 rows. -/
theorem weights_bottom (c : Dev nD) :
    V8 m ρ c main_v99 = extractStridedSlice S45x5 ![68, 0] (m ((c : Thread nD τ).loc main_arg6)) slices_S113x5_S45x5_68_0 := by
  show StableHlo.after hostOps2_2 (StableHlo.after hostOps2_1 (StableHlo.after hostOps2 (W5 m ρ c))) (Proc.devRef .tc main_v99) = _
  after_results_simp
  rw [after_second_arg6]

/-- The bias laid out as one row. -/
theorem bias_row (c : Dev nD) :
    V8 m ρ c main_v100 = shapeCast S1x5 (m ((c : Thread nD τ).loc main_arg7)) shapeCasts_S5_S1x5 := by
  show StableHlo.after hostOps2_2 (StableHlo.after hostOps2_1 (StableHlo.after hostOps2 (W5 m ρ c))) (Proc.devRef .tc main_v100) = _
  after_results_simp
  rw [after_second_arg7]
  rfl

/-- The first activation is not touched between launch 2's entry and the head's. -/
theorem first_activation_kept (c : Dev nD) : V8 m ρ c main_v48 = V4 m ρ c main_v48 := by
  show StableHlo.after hostOps2_2 (StableHlo.after hostOps2_1 (StableHlo.after hostOps2 (W5 m ρ c))) (Proc.devRef .tc main_v48) = _
  after_results_simp
  exact W5_of_ne m ρ c main_v48 (by decide)

/-! ## After the head -/

/-- THE RESULT BUFFER at the end: the head's stored value of the two activations (as the boundaries hold them), the two
    cuts of the weight matrix and the bias row. -/
theorem result (c : Dev nD) :
    V9 m ρ c main_v101 = k2_pay1 (V4 m ρ c main_v48) (V8 m ρ c main_v97)
      (extractStridedSlice S68x5 ![0, 0] (m ((c : Thread nD τ).loc main_arg6)) slices_S113x5_S68x5_0_0)
      (extractStridedSlice S45x5 ![68, 0] (m ((c : Thread nD τ).loc main_arg6)) slices_S113x5_S45x5_68_0)
      (shapeCast S1x5 (m ((c : Thread nD τ).loc main_arg7)) shapeCasts_S5_S1x5) := by
  refine ((W9_arr m ρ c 5).trans (Regions.array2 (V8 m ρ) c)).trans ?_
  rw [first_activation_kept, weights_top, weights_bottom, bias_row]

end Cert.KernelIdeal.Fold

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.HeadLaw.lean ====
/-
  THE HEAD: relu, then one linear layer over 113 features, computed two ways.

  The kernel's head takes the two activations h₁ (250×68) and h₂ (250×45) apart from each other, with the weight
  matrix Wf (113×5) cut into its first 68 rows and its last 45, and stores

      relu(h₁) · Wf[:68]  +  relu(h₂) · Wf[68:]  +  bf      (each product accumulated into zero, operands cast to bf16),

  the reference joins the activations along the feature axis first and computes  relu([h₁ | h₂]) · Wf + bf.
  At the extended reals the casts are the identity and both are, at row r and column c,

      Σ_{k<68} max(h₁(r,k), 0) · Wf(k, c)  +  Σ_{k<45} max(h₂(r,k), 0) · Wf(68+k, c)  +  bf(c):

  entry k < 68 of the joined row is h₁'s, entry 68 + k is h₂'s, and a sum over 113 = 68 + 45 indices splits at 68.
  Only the commutative-monoid structure of the extended reals' addition is used, so nothing is asked of the
  activations (they may be infinite). The zero both sides take the maximum against is the same float word and is
  never evaluated.
-/
import proofs.«131217_j52991306498332_2_alg».proof.Proof.Gen.KernelIdeal.Skeleton
import proofs.«131217_j52991306498332_2_alg».proof.Proof.Gen.ReferenceIdeal
import proofs.«131217_j52991306498332_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.Head

open Idealize.ShloMosaic Idealize.ShloMosaic.ValueIdx Cert.Lib.PlainDot

/-- The float word both programs take the maximum against (the zero word, read at the extended reals). -/
abbrev zeroWord : EReal := Ideal.ofBits .f32 0x00000000#32

/-! ## The kernel's head at (r, c) -/

section KernelSide

open Cert.KernelIdeal Cert.KernelIdeal.Gen

/-- Where the dimension numbers of the first product put the coordinates: left operand at (row, k), right at (k, column). -/
theorem first_l0 (i : S250x5.Idx) (q : dot_S250x68_S68x5_S250x5_1_0_0_1_n_n.contr.Idx) : (dot_S250x68_S68x5_S250x5_1_0_0_1_n_n.lhsIdx i q 0).val = (i 0).val := by
  unfold DotDims.lhsIdx
  rw [dif_neg (show ¬(0 : Fin S250x68.rank) ∈ dot_S250x68_S68x5_S250x5_1_0_0_1_n_n.lhsBatch by decide), dif_pos (show (0 : Fin S250x68.rank) ∈ dot_S250x68_S68x5_S250x5_1_0_0_1_n_n.lhsNonContracting by decide)]
  rfl
theorem first_l1 (i : S250x5.Idx) (q : dot_S250x68_S68x5_S250x5_1_0_0_1_n_n.contr.Idx) : (dot_S250x68_S68x5_S250x5_1_0_0_1_n_n.lhsIdx i q 1).val = (q ⟨0, by decide⟩).val :=
  dot_S250x68_S68x5_S250x5_1_0_0_1_n_n.lhsIdx_val_of_single rfl i q
theorem first_r0 (i : S250x5.Idx) (q : dot_S250x68_S68x5_S250x5_1_0_0_1_n_n.contr.Idx) : (dot_S250x68_S68x5_S250x5_1_0_0_1_n_n.rhsIdx i q 0).val = (q ⟨0, by decide⟩).val :=
  dot_S250x68_S68x5_S250x5_1_0_0_1_n_n.rhsIdx_val_of_single rfl i q
theorem first_r1 (i : S250x5.Idx) (q : dot_S250x68_S68x5_S250x5_1_0_0_1_n_n.contr.Idx) : (dot_S250x68_S68x5_S250x5_1_0_0_1_n_n.rhsIdx i q 1).val = (i 1).val := by
  unfold DotDims.rhsIdx
  rw [dif_neg (show ¬(1 : Fin S68x5.rank) ∈ dot_S250x68_S68x5_S250x5_1_0_0_1_n_n.rhsBatch by decide), dif_pos (show (1 : Fin S68x5.rank) ∈ dot_S250x68_S68x5_S250x5_1_0_0_1_n_n.rhsNonContracting by decide)]
  rfl

/-- Where the dimension numbers of the second product put the coordinates: left operand at (row, k), right at (k, column). -/
theorem second_l0 (i : S250x5.Idx) (q : dot_S250x45_S45x5_S250x5_1_0_0_1_n_n.contr.Idx) : (dot_S250x45_S45x5_S250x5_1_0_0_1_n_n.lhsIdx i q 0).val = (i 0).val := by
  unfold DotDims.lhsIdx
  rw [dif_neg (show ¬(0 : Fin S250x45.rank) ∈ dot_S250x45_S45x5_S250x5_1_0_0_1_n_n.lhsBatch by decide), dif_pos (show (0 : Fin S250x45.rank) ∈ dot_S250x45_S45x5_S250x5_1_0_0_1_n_n.lhsNonContracting by decide)]
  rfl
theorem second_l1 (i : S250x5.Idx) (q : dot_S250x45_S45x5_S250x5_1_0_0_1_n_n.contr.Idx) : (dot_S250x45_S45x5_S250x5_1_0_0_1_n_n.lhsIdx i q 1).val = (q ⟨0, by decide⟩).val :=
  dot_S250x45_S45x5_S250x5_1_0_0_1_n_n.lhsIdx_val_of_single rfl i q
theorem second_r0 (i : S250x5.Idx) (q : dot_S250x45_S45x5_S250x5_1_0_0_1_n_n.contr.Idx) : (dot_S250x45_S45x5_S250x5_1_0_0_1_n_n.rhsIdx i q 0).val = (q ⟨0, by decide⟩).val :=
  dot_S250x45_S45x5_S250x5_1_0_0_1_n_n.rhsIdx_val_of_single rfl i q
theorem second_r1 (i : S250x5.Idx) (q : dot_S250x45_S45x5_S250x5_1_0_0_1_n_n.contr.Idx) : (dot_S250x45_S45x5_S250x5_1_0_0_1_n_n.rhsIdx i q 1).val = (i 1).val := by
  unfold DotDims.rhsIdx
  rw [dif_neg (show ¬(1 : Fin S45x5.rank) ∈ dot_S250x45_S45x5_S250x5_1_0_0_1_n_n.rhsBatch by decide), dif_pos (show (1 : Fin S45x5.rank) ∈ dot_S250x45_S45x5_S250x5_1_0_0_1_n_n.rhsNonContracting by decide)]
  rfl

/-- The head's stored value with its identity shape casts dropped. -/
theorem stored_eq (a : FVec Ideal S250x68 .f32) (b : FVec Ideal S250x45 .f32) (u : FVec Ideal S68x5 .f32)
    (v : FVec Ideal S45x5 .f32) (β : FVec Ideal S1x5 .f32) :
    k2_pay1 (F := Ideal) a b u v β
      = addf (addf
          (matmul dot_S250x68_S68x5_S250x5_1_0_0_1_n_n none
            (truncf .bf16 (maximumf a (broadcast S250x68 (Scalar.ofBits .f32 0x00000000#32))) bitsLt_bf16_f32)
            (truncf .bf16 u bitsLt_bf16_f32) (constant S250x5 .f32 0x00000000#32))
          (matmul dot_S250x45_S45x5_S250x5_1_0_0_1_n_n none
            (truncf .bf16 (maximumf b (broadcast S250x45 (Scalar.ofBits .f32 0x00000000#32))) bitsLt_bf16_f32)
            (truncf .bf16 v bitsLt_bf16_f32) (constant S250x5 .f32 0x00000000#32)))
        (broadcastTo S250x5 β broadcasts_S1x5_S250x5) := by
  unfold k2_pay1
  simp only [shapeCast_self]

/-- The bias row, broadcast down the 250 rows, read at (r, c). -/
theorem bias_row (β : FVec Ideal S1x5 .f32) (r : Fin 250) (c : Fin 5) :
    broadcastTo S250x5 β broadcasts_S1x5_S250x5 (ix2 r c) = β (ix2 0 c) :=
  broadcastTo_apply β broadcasts_S1x5_S250x5 (ix2 r c) (ix2 0 c) (fun x => match x with
    | ⟨0, _⟩ => by show 0 = if (1 : Nat) = 1 then 0 else _; rw [if_pos rfl]
    | ⟨1, _⟩ => by show c.val = if (5 : Nat) = 1 then 0 else c.val; rw [if_neg (by decide)])

/-- THE KERNEL'S HEAD at (r, c). -/
theorem stored_apply (a : FVec Ideal S250x68 .f32) (b : FVec Ideal S250x45 .f32) (u : FVec Ideal S68x5 .f32)
    (v : FVec Ideal S45x5 .f32) (β : FVec Ideal S1x5 .f32) (r : Fin 250) (c : Fin 5) :
    k2_pay1 (F := Ideal) a b u v β (ix2 r c)
      = (∑ k : Fin 68, max (a (ix2 r k)) zeroWord * u (ix2 k c) + ∑ k : Fin 45, max (b (ix2 r k)) zeroWord * v (ix2 k c))
        + β (ix2 0 c) := by
  rw [stored_eq, addf_apply, addf_apply, bias_row,
    matmul_truncf_zero_eq_dotGeneral, matmul_truncf_zero_eq_dotGeneral,
    dotGeneral_apply_ix2 dot_S250x68_S68x5_S250x5_1_0_0_1_n_n rfl rfl first_l0 first_l1 first_r0 first_r1,
    dotGeneral_apply_ix2 dot_S250x45_S45x5_S250x5_1_0_0_1_n_n rfl rfl second_l0 second_l1 second_r0 second_r1]
  rfl

/-- Row k of the weight matrix's first 68 rows is row k of the matrix. -/
theorem slice_top (w : FVec Ideal S113x5 .f32) (k : Fin 68) (c : Fin 5) :
    extractStridedSlice S68x5 ![0, 0] w slices_S113x5_S68x5_0_0 (ix2 k c) = w (ix2 (Fin.castAdd 45 k) c) :=
  extractStridedSlice_apply ![0, 0] w slices_S113x5_S68x5_0_0 (ix2 k c) (ix2 (Fin.castAdd 45 k) c) (fun x => match x with
    | ⟨0, _⟩ => by show k.val = 0 + k.val; omega
    | ⟨1, _⟩ => by show c.val = 0 + c.val; omega)

/-- Row k of its last 45 rows is row 68 + k. -/
theorem slice_bottom (w : FVec Ideal S113x5 .f32) (k : Fin 45) (c : Fin 5) :
    extractStridedSlice S45x5 ![68, 0] w slices_S113x5_S45x5_68_0 (ix2 k c) = w (ix2 (Fin.natAdd 68 k) c) :=
  extractStridedSlice_apply ![68, 0] w slices_S113x5_S45x5_68_0 (ix2 k c) (ix2 (Fin.natAdd 68 k) c) (fun x => match x with
    | ⟨0, _⟩ => by show 68 + k.val = 68 + k.val; rfl
    | ⟨1, _⟩ => by show c.val = 0 + c.val; omega)

/-- The bias vector laid out as one row: entry (0, c) is entry c. -/
theorem bias_reshape (β : FVec Ideal S5 .f32) (c : Fin 5) :
    shapeCast S1x5 β shapeCasts_S5_S1x5 (ix2 0 c) = β (ix1 c) :=
  shapeCast_apply β shapeCasts_S5_S1x5 (ix2 0 c) (ix1 c)
    (by rw [Shape.rowMajor_val_one, Shape.rowMajor_val_two]; show c.val = 0 * 5 + c.val; omega)

end KernelSide

/-! ## The reference's head at (r, c) -/

section ReferenceSide

open Cert.ReferenceIdeal Cert.ReferenceIdeal.Gen

/-- Where the dimension numbers of the joined product put the coordinates: left operand at (row, k), right at (k, column). -/
theorem joined_l0 (i : S250x5.Idx) (q : dot_S250x113_S113x5_S250x5_1_0_0_1_n_n.contr.Idx) : (dot_S250x113_S113x5_S250x5_1_0_0_1_n_n.lhsIdx i q 0).val = (i 0).val := by
  unfold DotDims.lhsIdx
  rw [dif_neg (show ¬(0 : Fin S250x113.rank) ∈ dot_S250x113_S113x5_S250x5_1_0_0_1_n_n.lhsBatch by decide), dif_pos (show (0 : Fin S250x113.rank) ∈ dot_S250x113_S113x5_S250x5_1_0_0_1_n_n.lhsNonContracting by decide)]
  rfl
theorem joined_l1 (i : S250x5.Idx) (q : dot_S250x113_S113x5_S250x5_1_0_0_1_n_n.contr.Idx) : (dot_S250x113_S113x5_S250x5_1_0_0_1_n_n.lhsIdx i q 1).val = (q ⟨0, by decide⟩).val :=
  dot_S250x113_S113x5_S250x5_1_0_0_1_n_n.lhsIdx_val_of_single rfl i q
theorem joined_r0 (i : S250x5.Idx) (q : dot_S250x113_S113x5_S250x5_1_0_0_1_n_n.contr.Idx) : (dot_S250x113_S113x5_S250x5_1_0_0_1_n_n.rhsIdx i q 0).val = (q ⟨0, by decide⟩).val :=
  dot_S250x113_S113x5_S250x5_1_0_0_1_n_n.rhsIdx_val_of_single rfl i q
theorem joined_r1 (i : S250x5.Idx) (q : dot_S250x113_S113x5_S250x5_1_0_0_1_n_n.contr.Idx) : (dot_S250x113_S113x5_S250x5_1_0_0_1_n_n.rhsIdx i q 1).val = (i 1).val := by
  unfold DotDims.rhsIdx
  rw [dif_neg (show ¬(1 : Fin S113x5.rank) ∈ dot_S250x113_S113x5_S250x5_1_0_0_1_n_n.rhsBatch by decide), dif_pos (show (1 : Fin S113x5.rank) ∈ dot_S250x113_S113x5_S250x5_1_0_0_1_n_n.rhsNonContracting by decide)]
  rfl

/-- Entry k < 68 of a joined row is the first activation's. -/
theorem joined_left (a : FVec Ideal S250x68 .f32) (b : FVec Ideal S250x45 .f32) (r : Fin 250) (k : Fin 68) :
    concatenate S250x113 1 [⟨S250x68, a⟩, ⟨S250x45, b⟩] concatenates_S250x68_S250x45_S250x113_d1 (ix2 r (Fin.castAdd 45 k))
      = a (ix2 r k) :=
  concatenate_pair_apply_left 1 a b concatenates_S250x68_S250x45_S250x113_d1 (ix2 r (Fin.castAdd 45 k)) rfl (ix2 r k)
    (fun x => match x with | ⟨0, _⟩ => rfl | ⟨1, _⟩ => rfl)

/-- Entry 68 + k is the second activation's entry k. -/
theorem joined_right (a : FVec Ideal S250x68 .f32) (b : FVec Ideal S250x45 .f32) (r : Fin 250) (k : Fin 45) :
    concatenate S250x113 1 [⟨S250x68, a⟩, ⟨S250x45, b⟩] concatenates_S250x68_S250x45_S250x113_d1 (ix2 r (Fin.natAdd 68 k))
      = b (ix2 r k) :=
  concatenate_pair_apply_right 1 a b concatenates_S250x68_S250x45_S250x113_d1 (ix2 r (Fin.natAdd 68 k)) rfl rfl (ix2 r k)
    (fun x hx => match x, hx with | ⟨0, _⟩, _ => rfl | ⟨1, _⟩, hx => absurd rfl hx)
    (by show k.val + 68 = 68 + k.val; omega)

/-- The zero the reference takes the maximum against, splat over the joined shape: the zero word everywhere. -/
theorem zero_splat (j : S250x113.Idx) :
    broadcastInDim S250x113 ![] bcast_S_S250x113 (constant (F := Ideal) S_ .f32 0x00000000#32) j = zeroWord :=
  broadcastInDim_apply _ bcast_S_S250x113 (constant (F := Ideal) S_ .f32 0x00000000#32) j ix0 (fun x => x.elim0)

/-- The bias vector broadcast to a row and then down the rows, read at (r, c): entry c. -/
theorem bias_bcast (β : FVec Ideal S5 .f32) (r : Fin 250) (c : Fin 5) :
    broadcastInDim S250x5 ![0, 1] bcast_S1x5_S250x5_0_1 (broadcastInDim S1x5 ![1] bcast_S5_S1x5_1 β) (ix2 r c) = β (ix1 c) :=
  (broadcastInDim_apply _ bcast_S1x5_S250x5_0_1 (broadcastInDim S1x5 ![1] bcast_S5_S1x5_1 β) (ix2 r c) (ix2 0 c) (fun x => match x with
    | ⟨0, _⟩ => by show 0 = if (1 : Nat) = 1 then 0 else r.val; rw [if_pos rfl]
    | ⟨1, _⟩ => by show c.val = if (5 : Nat) = 1 then 0 else c.val; rw [if_neg (by decide)])).trans
  (broadcastInDim_apply _ bcast_S5_S1x5_1 β (ix2 0 c) (ix1 c) (fun x => match x with
    | ⟨0, _⟩ => by show c.val = if (5 : Nat) = 1 then 0 else c.val; rw [if_neg (by decide)]))

/-- THE REFERENCE'S HEAD at (r, c): the 113-term sum, split at 68. -/
theorem joined_apply (a : FVec Ideal S250x68 .f32) (b : FVec Ideal S250x45 .f32) (w : FVec Ideal S113x5 .f32)
    (β : FVec Ideal S5 .f32) (r : Fin 250) (c : Fin 5) :
    addf (Host.dotGeneral dot_S250x113_S113x5_S250x5_1_0_0_1_n_n none
            (maximumf (concatenate S250x113 1 [⟨S250x68, a⟩, ⟨S250x45, b⟩] concatenates_S250x68_S250x45_S250x113_d1)
              (broadcastInDim S250x113 ![] bcast_S_S250x113 (constant S_ .f32 0x00000000#32))) w)
         (broadcastInDim S250x5 ![0, 1] bcast_S1x5_S250x5_0_1 (broadcastInDim S1x5 ![1] bcast_S5_S1x5_1 β)) (ix2 r c)
      = (∑ k : Fin 68, max (a (ix2 r k)) zeroWord * w (ix2 (Fin.castAdd 45 k) c)
          + ∑ k : Fin 45, max (b (ix2 r k)) zeroWord * w (ix2 (Fin.natAdd 68 k) c)) + β (ix1 c) := by
  rw [addf_apply, bias_bcast]
  refine congrArg (· + β (ix1 c)) ?_
  refine ((dotGeneral_apply_ix2 dot_S250x113_S113x5_S250x5_1_0_0_1_n_n rfl rfl joined_l0 joined_l1 joined_r0 joined_r1
    none _ w r c).trans (sum_split 68 45 _)).trans ?_
  refine congrArg₂ (· + ·) (Finset.sum_congr rfl fun k _ => ?_) (Finset.sum_congr rfl fun k _ => ?_)
  · show max (concatenate S250x113 1 [⟨S250x68, a⟩, ⟨S250x45, b⟩] concatenates_S250x68_S250x45_S250x113_d1 (ix2 r (Fin.castAdd 45 k)))
        (broadcastInDim S250x113 ![] bcast_S_S250x113 (constant (F := Ideal) S_ .f32 0x00000000#32) (ix2 r (Fin.castAdd 45 k))) * _ = _
    rw [joined_left, zero_splat]
  · show max (concatenate S250x113 1 [⟨S250x68, a⟩, ⟨S250x45, b⟩] concatenates_S250x68_S250x45_S250x113_d1 (ix2 r (Fin.natAdd 68 k)))
        (broadcastInDim S250x113 ![] bcast_S_S250x113 (constant (F := Ideal) S_ .f32 0x00000000#32) (ix2 r (Fin.natAdd 68 k))) * _ = _
    rw [joined_right, zero_splat]

end ReferenceSide

/-! ## The two heads are one function -/

/-- For equal activations the kernel's head — on the two pieces, with the weight matrix cut at row 68 and the bias as a
    row — and the reference's head on the joined activations are equal, entry by entry. -/
theorem head_law
    (a : FVec Ideal Cert.KernelIdeal.S250x68 .f32) (a' : FVec Ideal Cert.ReferenceIdeal.S250x68 .f32)
    (b : FVec Ideal Cert.KernelIdeal.S250x45 .f32) (b' : FVec Ideal Cert.ReferenceIdeal.S250x45 .f32)
    (w : FVec Ideal Cert.ReferenceIdeal.S113x5 .f32) (β : FVec Ideal Cert.ReferenceIdeal.S5 .f32)
    (ha : a = a') (hb : b = b') :
    Cert.KernelIdeal.Gen.k2_pay1 (F := Ideal) a b
        (extractStridedSlice Cert.KernelIdeal.S68x5 ![0, 0] w Cert.KernelIdeal.Gen.slices_S113x5_S68x5_0_0)
        (extractStridedSlice Cert.KernelIdeal.S45x5 ![68, 0] w Cert.KernelIdeal.Gen.slices_S113x5_S45x5_68_0)
        (shapeCast Cert.KernelIdeal.S1x5 β Cert.KernelIdeal.Gen.shapeCasts_S5_S1x5)
      = addf (Host.dotGeneral Cert.ReferenceIdeal.dot_S250x113_S113x5_S250x5_1_0_0_1_n_n none
                (maximumf (concatenate Cert.ReferenceIdeal.S250x113 1 [⟨Cert.ReferenceIdeal.S250x68, a'⟩, ⟨Cert.ReferenceIdeal.S250x45, b'⟩]
                    Cert.ReferenceIdeal.Gen.concatenates_S250x68_S250x45_S250x113_d1)
                  (broadcastInDim Cert.ReferenceIdeal.S250x113 ![] Cert.ReferenceIdeal.Gen.bcast_S_S250x113
                    (constant Cert.ReferenceIdeal.S_ .f32 0x00000000#32))) w)
             (broadcastInDim Cert.ReferenceIdeal.S250x5 ![0, 1] Cert.ReferenceIdeal.Gen.bcast_S1x5_S250x5_0_1
               (broadcastInDim Cert.ReferenceIdeal.S1x5 ![1] Cert.ReferenceIdeal.Gen.bcast_S5_S1x5_1 β)) := by
  subst ha hb
  funext j
  obtain ⟨r, c, rfl⟩ : ∃ (r : Fin 250) (c : Fin 5), j = ix2 r c := ⟨j 0, j 1, eq_ix2 j⟩
  rw [stored_apply, joined_apply]
  refine congrArg₂ (· + ·) (congrArg₂ (· + ·) (Finset.sum_congr rfl fun k _ => ?_) (Finset.sum_congr rfl fun k _ => ?_)) ?_
  · rw [slice_top]
  · rw [slice_bottom]
  · exact bias_reshape β c

end Cert.Head

end
-- ==== Proof.LibJoin2.lean ====
/-
  Reading a fold of host operations back THROUGH A TWO-PIECE CONCATENATION.

  What a buffer holds after a line of host operations is a fold; the library's one-pass simplifier
  (`after_results_simp`) rewrites each operation's result at its own buffer to its function's value and at any other
  buffer to what was there. It stops at a two-operand `stablehlo.concatenate`: the operation's function is
  `fun a b => concatenate t ax [⟨s₁, a⟩, ⟨s₂, b⟩] h`, and the simplifier does not rewrite an operand inside that list
  of (shape, contents) pairs (the side condition `h` is stated over the list), so the operands' own contents are
  left as folds. `join2` is the same concatenation with the two operands as plain arguments — the side condition is
  about the two shapes only — and `join2_def` turns the printed form into it; with that equation in the pass the
  operands are rewritten like any other argument. `read_back` is the library's pass with `join2_def` added, and with
  `cast_eq`, which removes the transports an outlined function's typed references put around a value (they are along
  equations that hold by reflexivity).
-/
import Idealize.ShloMosaic.Lib.StableHlo.Run

noncomputable section

namespace Cert.Lib.Join2

open Idealize.ShloMosaic

/-- The concatenation of two pieces along axis `a`, the pieces as plain arguments. -/
def join2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The printed two-piece concatenation is `join2` of its pieces. -/
theorem join2_def {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = join2 t a s₁ s₂ h x₁ x₂ := rfl

end Cert.Lib.Join2

/-- The fold of a literal line of host operations at a literal buffer, read back to the operations' functions applied
    to the contents the line started from — in one pass, also through two-piece concatenations (left as `join2`) and
    through the transports of outlined functions' typed references. -/
macro "read_back" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result', Idealize.ShloMosaic.StableHlo.nary4_result', Idealize.ShloMosaic.StableHlo.nary_result', Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne', Idealize.ShloMosaic.StableHlo.nary_result_ne', Idealize.ShloMosaic.StableHlo.unaryIndexed_result_ne', Idealize.ShloMosaic.StableHlo.binaryIndexed_result_ne',
      Cert.Lib.Join2.join2_def, cast_eq]))

end
-- ==== Proof.Bridge.lean ====
/-
  THE TWO PROGRAMS COMPUTE ONE FUNCTION of their arguments, at the extended reals.

  Both programs are a two-layer graph convolution followed by relu and one linear layer:

      hᵢ = Aggregateᵢ(xᵢ · Wᵢ) + bᵢ   (i = 1, 2; the aggregation normalises by node degrees, gathers along the edges and
                                       adds up per destination node — host operations, the same ones in both programs),
      out = relu([h₁ | h₂]) · Wf + bf   (after h₁ is re-laid 85×200 → 250×68 and h₂ 5625×2 → 250×45).

  The kernel computes the two projections xᵢ · Wᵢ and the head in three launches; the reference computes everything
  on the host. Read back, the kernel's result is the head's stored value of (h₁, h₂, Wf[:68], Wf[68:], bf as a row) with
  each hᵢ the host chain applied to launch i's output, and the reference's result is the joined head of the same
  chains applied to its own products. So the comparison is two facts and nothing else:

    * a launch's product — operands cast to bf16, accumulated into zero — is the host's dot_general of the same arrays
      (the matrix-product law), after which the two aggregation chains are THE SAME TERM on both sides and are never
      opened: they are compared as they stand;
    * the split head is the joined head (the head law: a 113-term sum split at 68).

  No finiteness of any input is used.
-/
import proofs.«131217_j52991306498332_2_alg».proof.Proof.KernelFold
import proofs.«131217_j52991306498332_2_alg».proof.Proof.HeadLaw
import proofs.«131217_j52991306498332_2_alg».proof.Proof.ReferenceOps
import proofs.«131217_j52991306498332_2_alg».proof.Proof.LibPlainDot
import proofs.«131217_j52991306498332_2_alg».proof.Proof.LibJoin2
import Idealize.ShloMosaic.Lib.StableHlo.Run

set_option maxRecDepth 16384

noncomputable section

namespace Cert.Bridge

open Idealize.ShloMosaic Idealize.ShloMosaic.TcCoe Idealize.SL.Sem Idealize.ShloMosaic.StableHlo

/-- The first launch's stored value is the host's product x₁ · W₁. -/
theorem first_product (x : FVec Ideal Cert.KernelIdeal.S85x256 .f32) (w : FVec Ideal Cert.KernelIdeal.S256x200 .f32) :
    Cert.KernelIdeal.Gen.k0_pay1 (F := Ideal) x w = Host.dotGeneral Cert.KernelIdeal.dot_S85x256_S256x200_S85x200_1_0_0_1_n_n none x w :=
  Cert.Lib.PlainDot.matmul_truncf_zero_eq_dotGeneral _ _ _ _ _ _

/-- The second launch's stored value is the host's product x₂ · W₂. -/
theorem second_product (x : FVec Ideal Cert.KernelIdeal.S5625x128 .f32) (w : FVec Ideal Cert.KernelIdeal.S128x2 .f32) :
    Cert.KernelIdeal.Gen.k1_pay1 (F := Ideal) x w = Host.dotGeneral Cert.KernelIdeal.dot_S5625x128_S128x2_S5625x2_1_0_0_1_n_n none x w :=
  Cert.Lib.PlainDot.matmul_truncf_zero_eq_dotGeneral _ _ _ _ _ _

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

set_option maxHeartbeats 4000000 in
/-- From memories that agree on the ten arguments, the kernel's result buffer at the end of its run and the reference's
    (each as its program's fold leaves it) hold the same array. -/
theorem result_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.KernelIdeal.Gen.V9 m ρ c Cert.KernelIdeal.main_v101
      = StableHlo.after (Cert.ReferenceIdeal.Ops.ops (F := Ideal)) (launchContents m' c) (Proc.devRef .tc Cert.ReferenceIdeal.main_v103) := by
  rw [Cert.KernelIdeal.Fold.result]
  show Cert.KernelIdeal.Gen.k2_pay1
      (StableHlo.after Cert.KernelIdeal.Gen.hostOps1_2 (StableHlo.after Cert.KernelIdeal.Gen.hostOps1_1 (StableHlo.after Cert.KernelIdeal.Gen.hostOps1 (Cert.KernelIdeal.Gen.W1 m ρ c)))
        (Proc.devRef .tc Cert.KernelIdeal.main_v48))
      (StableHlo.after Cert.KernelIdeal.Gen.hostOps2_2 (StableHlo.after Cert.KernelIdeal.Gen.hostOps2_1 (StableHlo.after Cert.KernelIdeal.Gen.hostOps2 (Cert.KernelIdeal.Gen.W5 m ρ c)))
        (Proc.devRef .tc Cert.KernelIdeal.main_v97)) _ _ _ = _
  -- both folds read back, in one pass, to pure terms over the launches' arrays and the arguments
  read_back
  -- the reference's arguments are the kernel's
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  have e8 : launchContents m' c (Proc.devRef .tc Cert.ReferenceIdeal.main_arg8) = m ((c.tc : Thread Cert.KernelIdeal.nD Cert.KernelIdeal.τ).loc Cert.KernelIdeal.main_arg8) := h8
  have e9 : launchContents m' c (Proc.devRef .tc Cert.ReferenceIdeal.main_arg9) = m ((c.tc : Thread Cert.KernelIdeal.nD Cert.KernelIdeal.τ).loc Cert.KernelIdeal.main_arg9) := h9
  rw [e0, e1, e2, e3, e4, e5, e6, e7, e8, e9]
  -- what the kernel's two aggregation chains read at their boundaries: a launch's product, and arguments as launched
  rw [Cert.KernelIdeal.Fold.first_projection, Cert.KernelIdeal.Fold.after_first m ρ c Cert.KernelIdeal.main_arg8 (by decide),
    Cert.KernelIdeal.Fold.after_first m ρ c Cert.KernelIdeal.main_arg3 (by decide),
    Cert.KernelIdeal.Fold.second_projection, Cert.KernelIdeal.Fold.after_second_arg9, Cert.KernelIdeal.Fold.after_second_arg5]
  -- a launch's product is the host's
  rw [first_product, second_product]
  -- the split head is the joined head; the activations on the two sides are now the same terms
  refine Cert.Head.head_law _ _ _ _ _ _ ?_ ?_
  · rfl
  · rfl

end Cert.Bridge

end
-- ==== Proof.lean ====
/-
  The certificate of a two-layer graph convolution with a fused head.

  THE PROGRAMS. The kernel program computes, with three kernel launches among host operations,

      pᵢ = xᵢ · Wᵢ                       (launches 1 and 2: operands cast to bf16, accumulated into zero)
      hᵢ = Aggregateᵢ(pᵢ) + bᵢ            (host: degrees from the edge list with self loops, normalisation
                                           deg^(-1/2) where deg > 0, gather along the edges, scatter-add per node)
      out = relu(h₁') · Wf[:68] + relu(h₂') · Wf[68:] + bf      (launch 3, on the re-laid h₁' : 250×68, h₂' : 250×45)

  and the reference computes the same pᵢ by the host's dot_general, the same hᵢ, and  relu([h₁' | h₂']) · Wf + bf.

  THE CLAIMS. The three frames: the two kernel programs' are the generated frame certificates; the reference's is its
  run with the result dropped. The idealization rewrote no operation, so `preserves` holds trivially. For `algebraic`
  both programs run from memories agreeing on the arguments; the kernel's result buffer ends at the fold of its
  segments read at that buffer, the reference's at the fold of its operations, and the two folds hold one array:
  a launch's product is the host's product (casts are the identity at the extended reals and a zero accumulator adds
  nothing), the aggregation chains are then the same term, and a 113-term sum splits at 68.
-/
import proofs.«131217_j52991306498332_2_alg».proof.Defs
import proofs.«131217_j52991306498332_2_alg».proof.Proof.Gen.Kernel
import proofs.«131217_j52991306498332_2_alg».proof.Proof.Gen.Kernel.Frame
import proofs.«131217_j52991306498332_2_alg».proof.Proof.Gen.KernelIdeal
import proofs.«131217_j52991306498332_2_alg».proof.Proof.Gen.KernelIdeal.Frame
import proofs.«131217_j52991306498332_2_alg».proof.Proof.Gen.ReferenceIdeal
import proofs.«131217_j52991306498332_2_alg».proof.Proof.Gen.Pre_finite_inputs
import proofs.«131217_j52991306498332_2_alg».proof.Proof.KernelRun
import proofs.«131217_j52991306498332_2_alg».proof.Proof.ReferenceRun
import proofs.«131217_j52991306498332_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.RunFold.run (F := Ideal) m ρ)

/-- The idealization rewrote no operation. -/
theorem preserves : Cert.preserves_Kernel_KernelIdeal := trivial

/-- From memories agreeing on the arguments both programs run, each leaving its arguments as launched, and end with
    the same result array: the kernel's, read off the last boundary of its run. -/
theorem algebraic : Cert.algebraic_KernelIdeal_ReferenceIdeal := by
  intro m ρ m' ρ' _ hagree
  refine ⟨fun c => Cert.KernelIdeal.Gen.V9 m ρ c Cert.KernelIdeal.main_v101, Cert.KernelIdeal.RunValue.run_fold m ρ, ?_⟩
  refine (θ_run Cert.ReferenceIdeal.defs _ _).mono (fun _ h c => ⟨(h c).1.trans ?_, (h c).2⟩)
    (Cert.ReferenceIdeal.RunFold.run (F := Ideal) m' ρ')
  obtain ⟨h0, h1, h2, h3, h4, h5, h6, h7, h8, h9⟩ := hagree c
  exact (Cert.Bridge.result_eq m ρ m' c h0 h1 h2 h3 h4 h5 h6 h7 h8 h9).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
